-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x64 : Shape := ⟨2, ![8, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S8x64 .f32) (main_arg9 : FVec F S64 .f32) (main_v33 : IVec S_ 1) : IVec S_ 1 :=
  let main_v34 : FVec F S8x64 .f32 := Host.absf main_arg8
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S16 .f32) (main_arg6 : FVec F S16x8 .f32) (main_arg7 : FVec F S8 .f32) (main_arg8 : FVec F S8x64 .f32) (main_arg9 : FVec F S64 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg6
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x3200000 32) (main_arg2 : FVec F S64x32 .f32) (main_arg3 : FVec F S32 .f32) (main_arg4 : FVec F S32x16 .f32) (main_arg5 : FVec F S16 .f32) (main_arg6 : FVec F S16x8 .f32) (main_arg7 : FVec F S8 .f32) (main_arg8 : FVec F S8x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x64 : Shape := ⟨2, ![8, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x64 : Shape := ⟨2, ![10000, 64]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩
abbrev S3300000x64 : Shape := ⟨2, ![3300000, 64]⟩
abbrev S1x64 : Shape := ⟨2, ![1, 64]⟩

abbrev nBuf : Space → Nat
  | .hbm => 123
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S8x64, .f32⟩
  | .hbm, ⟨9, _⟩ => ⟨S64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x32, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x32, .f32⟩
  | .hbm, ⟨60, _⟩ => ⟨S3300000x1, .f32⟩
  | .hbm, ⟨61, _⟩ => ⟨S3300000x32, .f32⟩
  | .hbm, ⟨62, _⟩ => ⟨S3300000x32, .f32⟩
  | .hbm, ⟨63, _⟩ => ⟨S_, .f32⟩
  | .hbm, ⟨64, _⟩ => ⟨S100000x32, .f32⟩
  | .hbm, ⟨65, _⟩ => ⟨S3300000x1, .i32⟩
  | .hbm, ⟨66, _⟩ => ⟨S100000x32, .f32⟩
  | .hbm, ⟨67, _⟩ => ⟨S1x32, .f32⟩
  | .hbm, ⟨68, _⟩ => ⟨S100000x16, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x16, .f32⟩
  | .hbm, ⟨78, _⟩ => ⟨S3300000x1, .f32⟩
  | .hbm, ⟨79, _⟩ => ⟨S3300000x16, .f32⟩
  | .hbm, ⟨80, _⟩ => ⟨S3300000x16, .f32⟩
  | .hbm, ⟨81, _⟩ => ⟨S_, .f32⟩
  | .hbm, ⟨82, _⟩ => ⟨S100000x16, .f32⟩
  | .hbm, ⟨83, _⟩ => ⟨S3300000x1, .i32⟩
  | .hbm, ⟨84, _⟩ => ⟨S100000x16, .f32⟩
  | .hbm, ⟨85, _⟩ => ⟨S1x16, .f32⟩
  | .hbm, ⟨86, _⟩ => ⟨S100000x8, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x8, .f32⟩
  | .hbm, ⟨96, _⟩ => ⟨S3300000x1, .f32⟩
  | .hbm, ⟨97, _⟩ => ⟨S3300000x8, .f32⟩
  | .hbm, ⟨98, _⟩ => ⟨S3300000x8, .f32⟩
  | .hbm, ⟨99, _⟩ => ⟨S_, .f32⟩
  | .hbm, ⟨100, _⟩ => ⟨S100000x8, .f32⟩
  | .hbm, ⟨101, _⟩ => ⟨S3300000x1, .i32⟩
  | .hbm, ⟨102, _⟩ => ⟨S100000x8, .f32⟩
  | .hbm, ⟨103, _⟩ => ⟨S1x8, .f32⟩
  | .hbm, ⟨104, _⟩ => ⟨S100000x64, .f32⟩
  | .hbm, ⟨105, _⟩ => ⟨S_, .i32⟩
  | .hbm, ⟨106, _⟩ => ⟨S3300000, .i32⟩
  | .hbm, ⟨107, _⟩ => ⟨S3300000, .i1⟩
  | .hbm, ⟨108, _⟩ => ⟨S_, .i32⟩
  | .hbm, ⟨109, _⟩ => ⟨S3300000, .i32⟩
  | .hbm, ⟨110, _⟩ => ⟨S3300000, .i32⟩
  | .hbm, ⟨111, _⟩ => ⟨S3300000, .i32⟩
  | .hbm, ⟨112, _⟩ => ⟨S3300000x1, .i32⟩
  | .hbm, ⟨113, _⟩ => ⟨S3300000x64, .f32⟩
  | .hbm, ⟨114, _⟩ => ⟨S3300000x1, .f32⟩
  | .hbm, ⟨115, _⟩ => ⟨S3300000x64, .f32⟩
  | .hbm, ⟨116, _⟩ => ⟨S3300000x64, .f32⟩
  | .hbm, ⟨117, _⟩ => ⟨S_, .f32⟩
  | .hbm, ⟨118, _⟩ => ⟨S100000x64, .f32⟩
  | .hbm, ⟨119, _⟩ => ⟨S3300000x1, .i32⟩
  | .hbm, ⟨120, _⟩ => ⟨S100000x64, .f32⟩
  | .hbm, ⟨121, _⟩ => ⟨S1x64, .f32⟩
  | .hbm, ⟨122, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x8, .f32⟩
  | .local _ .vmem, ⟨15, _⟩ => ⟨S10000x8, .f32⟩
  | .local _ .vmem, ⟨16, _⟩ => ⟨S10000x8, .f32⟩
  | .local _ .vmem, ⟨17, _⟩ => ⟨S10000x8, .f32⟩
  | .local _ .vmem, ⟨18, _⟩ => ⟨S10000x8, .f32⟩
  | .local _ .vmem, ⟨19, _⟩ => ⟨S1x8, .f32⟩
  | .local _ .vmem, ⟨20, _⟩ => ⟨S8x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x64_S8x64_0_0 : ∀ a, (![0, 0] : Fin 2 → Nat) a + S8x64.size a ≤ S8x64.size a
  h_S8x64 : 0 < S8x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x8_S10000x8_1_0_0_1_n_n_wf : DotDims.WF S10000x16 S16x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S10000x8_S8x64_S10000x64_1_0_0_1_n_n_wf : DotDims.WF S10000x8 S8x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x8.size a ≤ S16x8.size a
  hwx2_2 : ∀ i : grid2.Coords, EltTy.bits .f32 = 32 ∨ (Rect.block (s := S16x8) S16x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x8.size a ≤ S100000x8.size a
  hwx2_3 : ∀ i : grid2.Coords, EltTy.bits .f32 = 32 ∨ (Rect.block (s := S100000x8) S10000x8.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x64.size a ≤ S8x64.size a
  hwx3_2 : ∀ i : grid3.Coords, EltTy.bits .f32 = 32 ∨ (Rect.block (s := S8x64) S8x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S10000x8_S8x64_S10000x64_1_0_0_1_n_n : DotDims S10000x8 S8x64 S10000x64 where
  lhsContracting := [1]
  rhsContracting := [0]
  lhsNonContracting := [0]
  rhsNonContracting := [1]
  lhsBatch := []
  rhsBatch := []
  wf := dot_S10000x8_S8x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S10000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S8x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v88) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x64 : Shape := ⟨2, ![8, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S3300000x64 : Shape := ⟨2, ![3300000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x3200000, .i32⟩
  | 2 => ⟨S64x32, .f32⟩
  | 3 => ⟨S32, .f32⟩
  | 4 => ⟨S32x16, .f32⟩
  | 5 => ⟨S16, .f32⟩
  | 6 => ⟨S16x8, .f32⟩
  | 7 => ⟨S8, .f32⟩
  | 8 => ⟨S8x64, .f32⟩
  | 9 => ⟨S64, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x32, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x32, .f32⟩
  | 60 => ⟨S3300000x1, .f32⟩
  | 61 => ⟨S3300000x32, .f32⟩
  | 62 => ⟨S3300000x32, .f32⟩
  | 63 => ⟨S_, .f32⟩
  | 64 => ⟨S100000x32, .f32⟩
  | 65 => ⟨S3300000x1, .i32⟩
  | 66 => ⟨S100000x32, .f32⟩
  | 67 => ⟨S1x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x16, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x16, .f32⟩
  | 83 => ⟨S3300000x1, .f32⟩
  | 84 => ⟨S3300000x16, .f32⟩
  | 85 => ⟨S3300000x16, .f32⟩
  | 86 => ⟨S_, .f32⟩
  | 87 => ⟨S100000x16, .f32⟩
  | 88 => ⟨S3300000x1, .i32⟩
  | 89 => ⟨S100000x16, .f32⟩
  | 90 => ⟨S1x16, .f32⟩
  | 91 => ⟨S100000x16, .f32⟩
  | 92 => ⟨S100000x16, .f32⟩
  | 93 => ⟨S_, .f32⟩
  | 94 => ⟨S100000x16, .f32⟩
  | 95 => ⟨S100000x16, .f32⟩
  | 96 => ⟨S100000x8, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x8, .f32⟩
  | 106 => ⟨S3300000x1, .f32⟩
  | 107 => ⟨S3300000x8, .f32⟩
  | 108 => ⟨S3300000x8, .f32⟩
  | 109 => ⟨S_, .f32⟩
  | 110 => ⟨S100000x8, .f32⟩
  | 111 => ⟨S3300000x1, .i32⟩
  | 112 => ⟨S100000x8, .f32⟩
  | 113 => ⟨S1x8, .f32⟩
  | 114 => ⟨S100000x8, .f32⟩
  | 115 => ⟨S100000x8, .f32⟩
  | 116 => ⟨S_, .f32⟩
  | 117 => ⟨S100000x8, .f32⟩
  | 118 => ⟨S100000x8, .f32⟩
  | 119 => ⟨S100000x64, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x64, .f32⟩

abbrev hbmTy0_1 (i : Nat) : BufTy := match i % 128 with
  | 0 => ⟨S3300000x64, .f32⟩
  | 1 => ⟨S3300000x1, .f32⟩
  | 2 => ⟨S3300000x64, .f32⟩
  | 3 => ⟨S3300000x64, .f32⟩
  | 4 => ⟨S_, .f32⟩
  | 5 => ⟨S100000x64, .f32⟩
  | 6 => ⟨S3300000x1, .i32⟩
  | 7 => ⟨S100000x64, .f32⟩
  | 8 => ⟨S1x64, .f32⟩
  | 9 => ⟨S100000x64, .f32⟩
  | 10 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x64_S100000x64_1_0_0_1_n_n_wf : DotDims.WF S100000x8 S8x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.ValueRun.lean ====
/-
  The idealized kernel's run with its result array named.

  The program is five TensorCore regions among stretches of host operations. Running it from the launch memory, every
  unscoped buffer ends at the contents the fold through the program's segments assigns it (a stretch of host operations
  applies its operations; a region leaves each of its arrays at what its write-backs fold to and every other buffer as
  it was). Read at the result buffer this names the result array after the run; read at an argument it is the launch
  contents, since no segment writes an argument.
-/
import proofs.«138533_j47699906790066_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with the result buffer at the
    fold's final contents and the argument arrays as launched. -/
theorem run : θ_run defs (onTc (τ := τ) (main (F := F))) ⟨m, fun _ => 0, ρ⟩ (fun r => ∀ c : Dev nD,
      r.2.mem ((c.tc : Thread nD τ).loc main_v90) = W12 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v90 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.ValueRun

end
-- ==== Proof.RefRun.lean ====
/- The reference program's run, read back as pure terms.

   The reference is a straight line of array operations: its entry function, with the four functions it calls
   written out at their call sites, is a list `ops` of 129 operations, each writing one array computed from arrays
   written before it. Running the line from any memory therefore leaves every array at the composition of the
   operations' functions over the argument arrays' initial contents, and leaves the argument arrays as they were.
   `resOf` is that composition for the returned array and `runOf` the statement that every weakly fair execution
   terminates in such a state, for any float values; `res` and `run` are the two at the ideal instance, where a
   float is an extended real and every operation its textbook one. -/
import proofs.«138533_j47699906790066_1_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's 129 operations, in order; where it calls a function, that function's operations stand
    in the call's place, over the arrays that call names. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x32 ![0, 1] bcast_S3300000x1_S3300000x32_0_1 : (⟨S3300000x1, .f32⟩ : BufTy).Contents (Elt F) → (⟨S3300000x32, .f32⟩ : BufTy).Contents (Elt F)),
    binary main_v37 main_v39 main_v40 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    binary main_v47 main_arg4 main_v48 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x16, .f32⟩) main_call2_v0) (broadcastInDim S100000x16 ![] bcast_S_S100000x16),
    TRef.binary (TRef.of (T := ⟨S100000x16, .f32⟩) main_v64) (TRef.of (T := ⟨S100000x16, .f32⟩) main_call2_v0) (TRef.of (T := ⟨S100000x16, .f32⟩) main_v65) maximumf,
    binary main_v65 main_arg6 main_v66 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x8 ![0, 1] bcast_S3300000x1_S3300000x8_0_1 : (⟨S3300000x1, .f32⟩ : BufTy).Contents (Elt F) → (⟨S3300000x8, .f32⟩ : BufTy).Contents (Elt F)),
    binary main_v73 main_v75 main_v76 (mulf : (⟨S3300000x8, .f32⟩ : BufTy).Contents (Elt F) → (⟨S3300000x8, .f32⟩ : BufTy).Contents (Elt F) → (⟨S3300000x8, .f32⟩ : BufTy).Contents (Elt F)),
    nullary main_cst_14 (constant S_ .f32 0x00000000#32),
    unary main_cst_14 main_v77 (broadcastInDim S100000x8 ![] bcast_S_S100000x8 : (⟨S_, .f32⟩ : BufTy).Contents (Elt F) → (⟨S100000x8, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)),
    unary main_arg7 main_v80 (broadcastInDim S1x8 ![1] bcast_S8_S1x8_1 : (⟨S8, .f32⟩ : BufTy).Contents (Elt F) → (⟨S1x8, .f32⟩ : BufTy).Contents (Elt F)),
    unary main_v80 main_v81 (broadcastInDim S100000x8 ![0, 1] bcast_S1x8_S100000x8_0_1 : (⟨S1x8, .f32⟩ : BufTy).Contents (Elt F) → (⟨S100000x8, .f32⟩ : BufTy).Contents (Elt F)),
    binary main_v79 main_v81 main_v82 (addf : (⟨S100000x8, .f32⟩ : BufTy).Contents (Elt F) → (⟨S100000x8, .f32⟩ : BufTy).Contents (Elt F) → (⟨S100000x8, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x8, .f32⟩) main_call3_v0) (broadcastInDim S100000x8 ![] bcast_S_S100000x8),
    TRef.binary (TRef.of (T := ⟨S100000x8, .f32⟩) main_v82) (TRef.of (T := ⟨S100000x8, .f32⟩) main_call3_v0) (TRef.of (T := ⟨S100000x8, .f32⟩) main_v83) maximumf,
    binary main_v83 main_arg8 main_v84 ((fun l r => Host.dotGeneral dot_S100000x8_S8x64_S100000x64_1_0_0_1_n_n none l r) : (⟨S100000x8, .f32⟩ : BufTy).Contents (Elt F) → (⟨S8x64, .f32⟩ : BufTy).Contents (Elt F) → (⟨S100000x64, .f32⟩ : BufTy).Contents (Elt F)),
    nullary main_c_15 (constantI S_ 32 0#32),
    unary main_c_15 main_v85 (broadcastInDim S3300000 ![] bcast_S_S3300000 : (⟨S_, .i32⟩ : BufTy).Contents (Elt F) → (⟨S3300000, .i32⟩ : BufTy).Contents (Elt F)),
    binary main_v3 main_v85 main_v86 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v87 (broadcastInDim S3300000 ![] bcast_S_S3300000 : (⟨S_, .i32⟩ : BufTy).Contents (Elt F) → (⟨S3300000, .i32⟩ : BufTy).Contents (Elt F)),
    binary main_v3 main_v87 main_v88 (addi : (⟨S3300000, .i32⟩ : BufTy).Contents (Elt F) → (⟨S3300000, .i32⟩ : BufTy).Contents (Elt F) → (⟨S3300000, .i32⟩ : BufTy).Contents (Elt F)),
    ternary main_v86 main_v88 main_v3 main_v89 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v89 main_v90 (broadcastInDim S3300000x1 ![0] bcast_S3300000_S3300000x1_0 : (⟨S3300000, .i32⟩ : BufTy).Contents (Elt F) → (⟨S3300000x1, .i32⟩ : BufTy).Contents (Elt F)),
    binary main_v84 main_v90 main_v91 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v92 (broadcastInDim S3300000x1 ![0] bcast_S3300000_S3300000x1_0 : (⟨S3300000, .f32⟩ : BufTy).Contents (Elt F) → (⟨S3300000x1, .f32⟩ : BufTy).Contents (Elt F)),
    unary main_v92 main_v93 (broadcastInDim S3300000x64 ![0, 1] bcast_S3300000x1_S3300000x64_0_1 : (⟨S3300000x1, .f32⟩ : BufTy).Contents (Elt F) → (⟨S3300000x64, .f32⟩ : BufTy).Contents (Elt F)),
    binary main_v91 main_v93 main_v94 (mulf : (⟨S3300000x64, .f32⟩ : BufTy).Contents (Elt F) → (⟨S3300000x64, .f32⟩ : BufTy).Contents (Elt F) → (⟨S3300000x64, .f32⟩ : BufTy).Contents (Elt F)),
    nullary main_cst_17 (constant S_ .f32 0x00000000#32),
    unary main_cst_17 main_v95 (broadcastInDim S100000x64 ![] bcast_S_S100000x64 : (⟨S_, .f32⟩ : BufTy).Contents (Elt F) → (⟨S100000x64, .f32⟩ : BufTy).Contents (Elt F)),
    unary main_v6 main_v96 (broadcastInDim S3300000x1 ![0] bcast_S3300000_S3300000x1_0 : (⟨S3300000, .i32⟩ : BufTy).Contents (Elt F) → (⟨S3300000x1, .i32⟩ : BufTy).Contents (Elt F)),
    ternary main_v95 main_v96 main_v94 main_v97 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg9 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v97 main_v99 main_v100 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The entry function is that straight line: unfolding its three windows and the four called functions at their
    calls leaves one chain of steps, the operations of `ops` in order. -/
theorem main_eq (c : Dev nD) : main (F := F) c = seq ops := rfl
/-- No array of the signature is scoped: every one lives for the whole run. -/
theorem scopedRefs_eq : (Finset.univ.filter fun b : Ref sig .tc => b.isScoped) = ∅ := by decide
/-- There is no semaphore, so none is scoped. -/
theorem scopedSems_eq : (Finset.univ.filter fun sm : SemLoc sig => sm.isScoped .tc) = ∅ := by decide
set_option maxRecDepth 8192 in
/-- Every operation reads and writes arrays of the device's own signature only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- The returned array as a function of the argument arrays' initial contents `m`, for any float values: the
    composition of the operations that lead to it, each applied to the terms of the arrays it reads. The graph
    is the edge list (second argument) with one loop added at every node; a node's degree is the number of edges
    into it, and an edge's weight is the product of the inverse square roots of its two endpoints' degrees (zero
    in place of an inverse square root where the degree is not positive). A layer multiplies the node features by
    a weight matrix, gathers the rows at the edges' sources, scales each by its edge's weight, sums them into the
    edges' targets and adds a bias row; there are four layers, a maximum with zero after each of the first three. -/
def resOf (m : (ℓ : Loc nD τ sig) → Buf (Elt F) ℓ) (c : Dev nD) : Buf (Elt F) ((c.tc : Thread nD τ).loc main_v100) :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x64_S3300000x1_S3300000x64_1_0_n_n_0_1_164 (Host.dotGeneral dot_S100000x8_S8x64_S100000x64_1_0_0_1_n_n none (maximumf (addf (Host.scatterAdd scatter_S100000x8_S3300000x1_S3300000x8_1_0_0_1 (broadcastInDim S100000x8 ![] bcast_S_S100000x8 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x8_S3300000x1_S3300000x8_1_0_n_n_0_1_18 (Host.dotGeneral dot_S100000x16_S16x8_S100000x8_1_0_0_1_n_n none (maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 (Host.dotGeneral dot_S100000x32_S32x16_S100000x16_1_0_0_1_n_n none (maximumf (addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (mulf (Host.gather gather_S100000x32_S3300000x1_S3300000x32_1_0_n_n_0_1_132 (Host.dotGeneral dot_S100000x64_S64x32_S100000x32_1_0_0_1_n_n none (m ((c.tc : Thread nD τ).loc main_arg0)) (m ((c.tc : Thread nD τ).loc main_arg2))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x32 ![0, 1] bcast_S3300000x1_S3300000x32_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x32 ![0, 1] bcast_S1x32_S100000x32_0_1 (broadcastInDim S1x32 ![1] bcast_S32_S1x32_1 (m ((c.tc : Thread nD τ).loc main_arg3))))) (broadcastInDim S100000x32 ![] bcast_S_S100000x32 (constant S_ .f32 0x00000000#32))) (m ((c.tc : Thread nD τ).loc main_arg4))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x16 ![0, 1] bcast_S1x16_S100000x16_0_1 (broadcastInDim S1x16 ![1] bcast_S16_S1x16_1 (m ((c.tc : Thread nD τ).loc main_arg5))))) (broadcastInDim S100000x16 ![] bcast_S_S100000x16 (constant S_ .f32 0x00000000#32))) (m ((c.tc : Thread nD τ).loc main_arg6))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x8 ![0, 1] bcast_S3300000x1_S3300000x8_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x8 ![0, 1] bcast_S1x8_S100000x8_0_1 (broadcastInDim S1x8 ![1] bcast_S8_S1x8_1 (m ((c.tc : Thread nD τ).loc main_arg7))))) (broadcastInDim S100000x8 ![] bcast_S_S100000x8 (constant S_ .f32 0x00000000#32))) (m ((c.tc : Thread nD τ).loc main_arg8))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (broadcastInDim S3300000x64 ![0, 1] bcast_S3300000x1_S3300000x64_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] (m ((c.tc : Thread nD τ).loc main_arg1)) slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] (m ((c.tc : Thread nD τ).loc main_arg1)) slices_S2x3200000_S1x3200000_1_0) shapeCasts_S1x3200000_S3200000)⟩, ⟨S100000, (iotaInDim S100000 32 0)⟩] concatenates_S3200000_S100000_S3300000_d0))))))))) (broadcastInDim S100000x64 ![0, 1] bcast_S1x64_S100000x64_0_1 (broadcastInDim S1x64 ![1] bcast_S64_S1x64_1 (m ((c.tc : Thread nD τ).loc main_arg9))))

set_option maxRecDepth 8192 in
set_option maxHeartbeats 51600000 in
/-- On the device, for any float values, from any memory with zero counters: every weakly fair execution of the
    entry function terminates with the returned array at `resOf` of the arguments' initial contents and the ten
    argument arrays unchanged. -/
theorem runOf (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v100).trans (by after_results_simp <;> rfl <;> (unfold resOf; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

/-- The returned array over the extended reals: `resOf` at the ideal instance. -/
def res (m : (ℓ : Loc nD τ sig) → Buf (Elt Ideal) ℓ) (c : Dev nD) : Buf (Elt Ideal) ((c.tc : Thread nD τ).loc main_v100) :=
  resOf (F := Ideal) m c

/-- Over the extended reals, from any memory with zero counters: every weakly fair execution of the entry function
    terminates with the returned array at `res` of the arguments' initial contents and the ten argument arrays
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  runOf (F := Ideal) m ρ

end Cert.ReferenceIdeal.RefRun

end
-- ==== Proof.LibPlainDot.lean ====
/-
  General lemmas at the ideal instance (floats are extended reals) for a plain two-dimensional contraction
  `[M, K] × [K, N] → [M, N]` and for the row broadcasts that go with it, each read at an index.

  * `PlainDot.sum_contr`: the sum over the one-axis contraction index of a plain dot is the sum over `k : Fin K` of
    the left operand at `(row, k)` times the right operand at `(k, column)`.
  * `PlainDot.matmul_zero_apply` / `PlainDot.dotGeneral_apply`: the matrix unit's product into a zero accumulator and
    the host's `dot_general` are both that sum.
  * the row forms of a broadcast: a `[1, N]` array broadcast over `M` rows reads its one row; a vector of `N` entries
    re-laid as one row `[1, N]` (by a reshape or by a broadcast along a new leading axis) reads the vector.
  * `PlainDot.affineAt`: `(∑ₖ A[r,k]·Wl[k,c]) + (∑ₖ H[r,k]·Wr[k,c]) + b[c]` clamped below by `z` (a two-operand affine map
    followed by `max · z`), and `PlainDot.linAt`: `(∑ₖ P[r,k]·W[k,c]) + b[c]`; the host's spelling and the kernel
    body's spelling of each are these functions index by index; and the congruence that reads a block's entry as
    an array's entry.
-/
import Idealize.ShloMosaic.PureOps.Ideal.Laws
import Idealize.ShloMosaic.Lib.ValueIdx
import Idealize.ShloMosaic.Lib.Pipeline.Value

noncomputable section

open Idealize.ShloMosaic Idealize.ShloMosaic.ValueIdx

namespace PlainDot

variable {M K N : Nat}

/-- The sum over a plain dot's contraction index, re-indexed by the one contracted coordinate. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congrArg₂ (· * ·) (congrArg l el) (congrArg r er)

/-- The matrix unit's product into a zero accumulator, at an index. -/
theorem matmul_zero_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant (F := Ideal) ⟨2, ![M, N]⟩ .f32 0x00000000#32) j
      = ∑ k : Fin K, l (ix2 (j 0) k) * r (ix2 k (j 1)) := by
  show FloatOps.matmul (DotDims.plain M K N) prec l r (constant (F := Ideal) ⟨2, ![M, N]⟩ .f32 0x00000000#32) j = _
  rw [Ideal.matmul_constant_zero_apply]
  exact sum_contr l r j

/-- The host's `dot_general`, at an index. -/
theorem dotGeneral_apply {φ₁ φ₂ : FTy} (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  show FloatOps.dotGeneral (DotDims.plain M K N) prec .single l r j = _
  rw [Ideal.dotGeneral_apply]
  exact sum_contr l r j

/-! ## Rows -/

section Rows
variable {α : Type}

/-- A one-row array broadcast over `M` rows (`vector.broadcast`) reads its row. -/
theorem broadcastTo_row (x : (⟨2, ![1, N]⟩ : Shape).Idx → α) (h : (⟨2, ![1, N]⟩ : Shape).Broadcasts ⟨2, ![M, N]⟩)
    (j : (⟨2, ![M, N]⟩ : Shape).Idx) : broadcastTo ⟨2, ![M, N]⟩ x h j = x (ix2 0 (j 1)) := by
  refine broadcastTo_apply x h j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A one-row array broadcast over `M` rows (`broadcast_in_dim`, both axes kept) reads its row. -/
theorem broadcastInDim_row (x : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h x j = x (ix2 0 (j 1)) := by
  refine broadcastInDim_apply ![0, 1] h x j (ix2 0 (j 1)) fun a => ?_
  match a with
  | ⟨0, _⟩ => rfl
  | ⟨1, _⟩ =>
    show (j 1).val = if N = 1 then 0 else (j 1).val
    split_ifs with hN
    · have := (j 1).isLt; simp only [Matrix.cons_val_one, Matrix.cons_val_zero] at this; omega
    · rfl

/-- A vector laid out as one row by a broadcast along a new leading axis. -/
theorem broadcastInDim_vec_row (b : (⟨1, ![N]⟩ : Shape).Idx → α)
    (h : (⟨1, ![N]⟩ : Shape).BroadcastsInDim ⟨2, ![1, N]⟩ ![1]) (j : (⟨2, ![1, N]⟩ : Shape).Idx) :
    broadcastInDim ⟨2, ![1, N]⟩ ![1] h b j = b (ix1 (j 1)) := by
  refine broadcastInDim_apply ![1] h b j (ix1 (j 1)) fun a => ?_
  match a with
  | ⟨0, _⟩ =>
    show (j 1).val = if N = 1 then 0 else (j 1).val
    split_ifs with hN
    · have := (j 1).isLt; simp only [Matrix.cons_val_one, Matrix.cons_val_zero] at this; omega
    · rfl

/-- A vector laid out as one row by a reshape. -/
theorem shapeCast_vec_row (b : (⟨1, ![N]⟩ : Shape).Idx → α) (h : (⟨1, ![N]⟩ : Shape).ShapeCasts ⟨2, ![1, N]⟩)
    (j : (⟨2, ![1, N]⟩ : Shape).Idx) : shapeCast ⟨2, ![1, N]⟩ b h j = b (ix1 (j 1)) := by
  refine (shapeCast_addUnit_apply ![N] b h j).trans (congrArg b (funext fun a => ?_))
  match a with
  | ⟨0, _⟩ => rfl

/-- The two layouts of a vector as one row are one array. -/
theorem shapeCast_eq_broadcastInDim_row (b : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ b h = broadcastInDim ⟨2, ![1, N]⟩ ![1] h' b :=
  funext fun j => (shapeCast_vec_row b h j).trans (broadcastInDim_vec_row b h' j).symm

/-- A scalar broadcast to any shape reads the scalar. -/
theorem broadcastInDim_scalar {t : Shape} (x : (⟨0, ![]⟩ : Shape).Idx → α)
    (h : (⟨0, ![]⟩ : Shape).BroadcastsInDim t ![]) (j : t.Idx) : broadcastInDim t ![] h x j = x ix0 :=
  broadcastInDim_apply ![] h x j ix0 fun a => a.elim0

end Rows

/-! ## The two affine maps, index by index -/

/-- `max ((∑ₖ A[r,k]·Wl[k,c]) + (∑ₖ H[r,k]·Wr[k,c]) + B[0,c]) z` at `j = (r, c)`. -/
def affineAt (A H : (⟨2, ![M, K]⟩ : Shape).Idx → EReal) (Wl Wr : (⟨2, ![K, N]⟩ : Shape).Idx → EReal)
    (B : (⟨2, ![1, N]⟩ : Shape).Idx → EReal) (z : EReal) (j : (⟨2, ![M, N]⟩ : Shape).Idx) : EReal :=
  max ((∑ k : Fin K, A (ix2 (j 0) k) * Wl (ix2 k (j 1))) + (∑ k : Fin K, H (ix2 (j 0) k) * Wr (ix2 k (j 1))) + B (ix2 0 (j 1))) z

/-- `(∑ₖ P[r,k]·W[k,c]) + B[0,c]` at `j = (r, c)`. -/
def linAt (P : (⟨2, ![M, K]⟩ : Shape).Idx → EReal) (W : (⟨2, ![K, N]⟩ : Shape).Idx → EReal)
    (B : (⟨2, ![1, N]⟩ : Shape).Idx → EReal) (j : (⟨2, ![M, N]⟩ : Shape).Idx) : EReal :=
  (∑ k : Fin K, P (ix2 (j 0) k) * W (ix2 k (j 1))) + B (ix2 0 (j 1))

/-- An entry of `affineAt` over blocks is the entry of `affineAt` over arrays when the block entries it reads are the
    array entries at the matching row and column. -/
theorem affineAt_congr {P : Nat} (a h : (⟨2, ![P, K]⟩ : Shape).Idx → EReal) (wl wr : (⟨2, ![K, N]⟩ : Shape).Idx → EReal)
    (b : (⟨2, ![1, N]⟩ : Shape).Idx → EReal) (A H : (⟨2, ![M, K]⟩ : Shape).Idx → EReal)
    (Wl Wr : (⟨2, ![K, N]⟩ : Shape).Idx → EReal) (B : (⟨2, ![1, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hh : ∀ k : Fin K, h (ix2 (y 0) k) = H (ix2 (i 0) k))
    (hwl : ∀ k : Fin K, wl (ix2 k (y 1)) = Wl (ix2 k (i 1))) (hwr : ∀ k : Fin K, wr (ix2 k (y 1)) = Wr (ix2 k (i 1)))
    (hb : b (ix2 0 (y 1)) = B (ix2 0 (i 1))) :
    affineAt a h wl wr b z y = affineAt A H Wl Wr B z i := by
  have e1 : (∑ k : Fin K, a (ix2 (y 0) k) * wl (ix2 k (y 1))) = ∑ k : Fin K, A (ix2 (i 0) k) * Wl (ix2 k (i 1)) :=
    Finset.sum_congr rfl fun k _ => by rw [ha k, hwl k]
  have e2 : (∑ k : Fin K, h (ix2 (y 0) k) * wr (ix2 k (y 1))) = ∑ k : Fin K, H (ix2 (i 0) k) * Wr (ix2 k (i 1)) :=
    Finset.sum_congr rfl fun k _ => by rw [hh k, hwr k]
  unfold affineAt
  rw [e1, e2, hb]

theorem linAt_congr {P : Nat} (p : (⟨2, ![P, K]⟩ : Shape).Idx → EReal) (w : (⟨2, ![K, N]⟩ : Shape).Idx → EReal)
    (b : (⟨2, ![1, N]⟩ : Shape).Idx → EReal) (Pa : (⟨2, ![M, K]⟩ : Shape).Idx → EReal)
    (W : (⟨2, ![K, N]⟩ : Shape).Idx → EReal) (B : (⟨2, ![1, N]⟩ : Shape).Idx → EReal)
    (y : (⟨2, ![P, N]⟩ : Shape).Idx) (i : (⟨2, ![M, N]⟩ : Shape).Idx)
    (hp : ∀ k : Fin K, p (ix2 (y 0) k) = Pa (ix2 (i 0) k)) (hw : ∀ k : Fin K, w (ix2 k (y 1)) = W (ix2 k (i 1)))
    (hb : b (ix2 0 (y 1)) = B (ix2 0 (i 1))) :
    linAt p w b y = linAt Pa W B i := by
  have e1 : (∑ k : Fin K, p (ix2 (y 0) k) * w (ix2 k (y 1))) = ∑ k : Fin K, Pa (ix2 (i 0) k) * W (ix2 k (i 1)) :=
    Finset.sum_congr rfl fun k _ => by rw [hp k, hw k]
  unfold linAt
  rw [e1, hb]

/-- The host's spelling of the clamped affine map: two `dot_general`s added, a one-row bias broadcast over the rows
    added, `maximum` with a broadcast zero scalar. -/
theorem host_affine_apply (A H : FVec Ideal ⟨2, ![M, K]⟩ .f32) (Wl Wr : FVec Ideal ⟨2, ![K, N]⟩ .f32)
    (B : FVec Ideal ⟨2, ![1, N]⟩ .f32)
    (hb : (⟨2, ![1, N]⟩ : Shape).BroadcastsInDim ⟨2, ![M, N]⟩ ![0, 1])
    (hz : (⟨0, ![]⟩ : Shape).BroadcastsInDim ⟨2, ![M, N]⟩ ![]) (j : (⟨2, ![M, N]⟩ : Shape).Idx) :
    maximumf (addf (addf (Host.dotGeneral (DotDims.plain M K N) none A Wl) (Host.dotGeneral (DotDims.plain M K N) none H Wr))
        (broadcastInDim ⟨2, ![M, N]⟩ ![0, 1] hb B))
      (broadcastInDim ⟨2, ![M, N]⟩ ![] hz (constant (F := Ideal) ⟨0, ![]⟩ .f32 0x00000000#32)) j
      = affineAt A H Wl Wr B (Ideal.ofBits .f32 0x00000000#32) j := by
  rw [maximumf_apply, addf_apply, addf_apply, dotGeneral_apply, dotGeneral_apply, broadcastInDim_row, broadcastInDim_scalar]
  rfl

/-- The host's spelling of the plain affine map. -/
theorem host_lin_apply (P : FVec Ideal ⟨2, ![M, K]⟩ .f32) (W : FVec Ideal ⟨2, ![K, N]⟩ .f32)
    (B : FVec Ideal ⟨2, ![1, N]⟩ .f32)
    (hb : (⟨2, ![1, N]⟩ : Shape).BroadcastsInDim ⟨2, ![M, N]⟩ ![0, 1]) (j : (⟨2, ![M, N]⟩ : Shape).Idx) :
    addf (Host.dotGeneral (DotDims.plain M K N) none P W) (broadcastInDim ⟨2, ![M, N]⟩ ![0, 1] hb B) j
      = linAt P W B j := by
  rw [addf_apply, dotGeneral_apply, broadcastInDim_row]
  rfl

/-- The kernel body's spelling of the clamped affine map: operands rounded to bf16 (the identity on extended reals),
    two matrix-unit products into zero accumulators added, the one-row bias broadcast added, `maximum` with zero. -/
theorem body_affine_apply (x0 x1 : FVec Ideal ⟨2, ![M, K]⟩ .f32) (x2 x3 : FVec Ideal ⟨2, ![K, N]⟩ .f32)
    (x4 : FVec Ideal ⟨2, ![1, N]⟩ .f32)
    (h0 : (⟨2, ![M, K]⟩ : Shape).ShapeCasts ⟨2, ![M, K]⟩) (h4 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    maximumf (addf (addf
          (matmul (DotDims.plain M K N) none (truncf .bf16 (shapeCast ⟨2, ![M, K]⟩ x0 h0) hlt) (truncf .bf16 x2 hlt)
            (constant (F := Ideal) ⟨2, ![M, N]⟩ .f32 0x00000000#32))
          (matmul (DotDims.plain M K N) none (truncf .bf16 (shapeCast ⟨2, ![M, K]⟩ x1 h0) hlt) (truncf .bf16 x3 hlt)
            (constant (F := Ideal) ⟨2, ![M, N]⟩ .f32 0x00000000#32)))
        (broadcastTo ⟨2, ![M, N]⟩ (shapeCast ⟨2, ![1, N]⟩ x4 h4) hb))
      (broadcast ⟨2, ![M, N]⟩ (Scalar.ofBits (F := Ideal) .f32 0x00000000#32)) j
      = affineAt x0 x1 x2 x3 x4 (Ideal.ofBits .f32 0x00000000#32) j := by
  rw [maximumf_apply, addf_apply, addf_apply, matmul_zero_apply, matmul_zero_apply, broadcastTo_row, shapeCast_self,
    shapeCast_self, shapeCast_self]
  rfl

/-- The kernel body's spelling of the plain affine map. -/
theorem body_lin_apply (x0 : FVec Ideal ⟨2, ![M, K]⟩ .f32) (x1 : FVec Ideal ⟨2, ![K, N]⟩ .f32)
    (x2 : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hlt : FTy.bf16.bits < FTy.f32.bits) (hb : (⟨2, ![1, N]⟩ : Shape).Broadcasts ⟨2, ![M, N]⟩)
    (j : (⟨2, ![M, N]⟩ : Shape).Idx) :
    addf (matmul (DotDims.plain M K N) none (truncf .bf16 (shapeCast ⟨2, ![M, K]⟩ x0 h0) hlt) (truncf .bf16 x1 hlt)
          (constant (F := Ideal) ⟨2, ![M, N]⟩ .f32 0x00000000#32))
        (broadcastTo ⟨2, ![M, N]⟩ (shapeCast ⟨2, ![1, N]⟩ x2 h2) hb) j
      = linAt x0 x1 x2 j := by
  rw [addf_apply, matmul_zero_apply, broadcastTo_row, shapeCast_self, shapeCast_self]
  rfl

end PlainDot

end
-- ==== Proof.LibDense.lean ====
/-
  The dense arithmetic of one graph-convolution layer, index by index, at the ideal instance (floats are extended
  reals, a change of float format is the identity).

  For an array `X` of `M` rows and `K` columns, a weight matrix `W` of `K` rows and `N` columns and a one-row bias `B`:
  * `prod X W`       — the matrix product, `∑ₖ X[r,k] · W[k,c]`;
  * `layer A B z W`  — the product of the clamped, biased array with the weights, `∑ₖ max (A[r,k] + B[0,k]) z · W[k,c]`
                        (the bias and clamp of one layer fused with the product of the next);
  * `addRow X B`     — the bias added to every row, `X[r,c] + B[0,c]`.
  Each is what the host's spelling (a `dot_general`, a broadcast bias, `maximum` with a broadcast zero) computes on
  whole arrays and what the kernel body's spelling (operands rounded to bf16, the matrix unit's product into a zero
  accumulator) computes on blocks; and an entry over a block of rows is the entry over the whole array at the matching
  row, since each entry reads one row of the left operand only.
-/
import proofs.«138533_j47699906790066_1_alg».proof.Proof.LibPlainDot

noncomputable section

open Idealize.ShloMosaic Idealize.ShloMosaic.ValueIdx PlainDot

namespace GcnDense

variable {M K N : Nat}

/-- The matrix product `∑ₖ X[r,k] · W[k,c]` at `j = (r, c)`. -/
def prod (X : (⟨2, ![M, K]⟩ : Shape).Idx → EReal) (W : (⟨2, ![K, N]⟩ : Shape).Idx → EReal)
    (j : (⟨2, ![M, N]⟩ : Shape).Idx) : EReal :=
  ∑ k : Fin K, X (ix2 (j 0) k) * W (ix2 k (j 1))

/-- `∑ₖ max (A[r,k] + B[0,k]) z · W[k,c]` at `j = (r, c)`. -/
def layer (A : (⟨2, ![M, K]⟩ : Shape).Idx → EReal) (B : (⟨2, ![1, K]⟩ : Shape).Idx → EReal) (z : EReal)
    (W : (⟨2, ![K, N]⟩ : Shape).Idx → EReal) (j : (⟨2, ![M, N]⟩ : Shape).Idx) : EReal :=
  ∑ k : Fin K, max (A (ix2 (j 0) k) + B (ix2 0 k)) z * W (ix2 k (j 1))

/-- `X[r,c] + B[0,c]` at `j = (r, c)`. -/
def addRow (X : (⟨2, ![M, N]⟩ : Shape).Idx → EReal) (B : (⟨2, ![1, N]⟩ : Shape).Idx → EReal)
    (j : (⟨2, ![M, N]⟩ : Shape).Idx) : EReal :=
  X j + B (ix2 0 (j 1))

/-! ## The host's spellings, on whole arrays -/

theorem host_prod (X : FVec Ideal ⟨2, ![M, K]⟩ .f32) (W : FVec Ideal ⟨2, ![K, N]⟩ .f32) :
    Host.dotGeneral (DotDims.plain M K N) none X W = prod X W :=
  funext fun j => dotGeneral_apply none X W j

theorem host_layer (A : FVec Ideal ⟨2, ![M, K]⟩ .f32) (B : FVec Ideal ⟨2, ![1, K]⟩ .f32)
    (W : FVec Ideal ⟨2, ![K, N]⟩ .f32)
    (hb : (⟨2, ![1, K]⟩ : Shape).BroadcastsInDim ⟨2, ![M, K]⟩ ![0, 1])
    (hz : (⟨0, ![]⟩ : Shape).BroadcastsInDim ⟨2, ![M, K]⟩ ![]) :
    Host.dotGeneral (DotDims.plain M K N) none
        (maximumf (addf A (broadcastInDim ⟨2, ![M, K]⟩ ![0, 1] hb B))
          (broadcastInDim ⟨2, ![M, K]⟩ ![] hz (constant (F := Ideal) ⟨0, ![]⟩ .f32 0x00000000#32))) W
      = layer A B (Ideal.ofBits .f32 0x00000000#32) W := by
  funext j
  rw [dotGeneral_apply]
  refine Finset.sum_congr rfl fun k _ => ?_
  rw [maximumf_apply, addf_apply, broadcastInDim_row, broadcastInDim_scalar]
  rfl

theorem host_addRow (X : FVec Ideal ⟨2, ![M, N]⟩ .f32) (B : FVec Ideal ⟨2, ![1, N]⟩ .f32)
    (hb : (⟨2, ![1, N]⟩ : Shape).BroadcastsInDim ⟨2, ![M, N]⟩ ![0, 1]) :
    addf X (broadcastInDim ⟨2, ![M, N]⟩ ![0, 1] hb B) = addRow X B := by
  funext j
  rw [addf_apply, broadcastInDim_row]
  rfl

/-! ## The kernel body's spellings, on blocks -/

theorem body_prod (x0 : FVec Ideal ⟨2, ![M, K]⟩ .f32) (x1 : FVec Ideal ⟨2, ![K, N]⟩ .f32)
    (hlt : FTy.bf16.bits < FTy.f32.bits) :
    matmul (DotDims.plain M K N) none (truncf .bf16 x0 hlt) (truncf .bf16 x1 hlt)
        (constant (F := Ideal) ⟨2, ![M, N]⟩ .f32 0x00000000#32)
      = prod x0 x1 := by
  funext j
  rw [matmul_zero_apply]
  rfl

theorem body_layer (x0 : FVec Ideal ⟨2, ![M, K]⟩ .f32) (x1 : FVec Ideal ⟨2, ![1, K]⟩ .f32)
    (x2 : FVec Ideal ⟨2, ![K, N]⟩ .f32)
    (h0 : (⟨2, ![M, K]⟩ : Shape).ShapeCasts ⟨2, ![M, K]⟩) (h1 : (⟨2, ![1, K]⟩ : Shape).ShapeCasts ⟨2, ![1, K]⟩)
    (hlt : FTy.bf16.bits < FTy.f32.bits) (hb : (⟨2, ![1, K]⟩ : Shape).Broadcasts ⟨2, ![M, K]⟩) :
    matmul (DotDims.plain M K N) none
        (truncf .bf16 (maximumf (addf (shapeCast ⟨2, ![M, K]⟩ x0 h0) (broadcastTo ⟨2, ![M, K]⟩ (shapeCast ⟨2, ![1, K]⟩ x1 h1) hb))
          (broadcast ⟨2, ![M, K]⟩ (Scalar.ofBits (F := Ideal) .f32 0x00000000#32))) hlt)
        (truncf .bf16 x2 hlt) (constant (F := Ideal) ⟨2, ![M, N]⟩ .f32 0x00000000#32)
      = layer x0 x1 (Ideal.ofBits .f32 0x00000000#32) x2 := by
  funext j
  rw [matmul_zero_apply]
  refine Finset.sum_congr rfl fun k _ => ?_
  refine congrArg₂ (· * ·) ?_ rfl
  show maximumf (addf (shapeCast ⟨2, ![M, K]⟩ x0 h0) (broadcastTo ⟨2, ![M, K]⟩ (shapeCast ⟨2, ![1, K]⟩ x1 h1) hb))
      (broadcast ⟨2, ![M, K]⟩ (Scalar.ofBits (F := Ideal) .f32 0x00000000#32)) (ix2 (j 0) k) = _
  rw [maximumf_apply, addf_apply, broadcastTo_row, shapeCast_self, shapeCast_self]
  rfl

theorem body_addRow (x0 : FVec Ideal ⟨2, ![M, N]⟩ .f32) (x1 : FVec Ideal ⟨2, ![1, N]⟩ .f32)
    (h0 : (⟨2, ![M, N]⟩ : Shape).ShapeCasts ⟨2, ![M, N]⟩) (h1 : (⟨2, ![1, N]⟩ : Shape).ShapeCasts ⟨2, ![1, N]⟩)
    (hb : (⟨2, ![1, N]⟩ : Shape).Broadcasts ⟨2, ![M, N]⟩) :
    addf (shapeCast ⟨2, ![M, N]⟩ x0 h0) (broadcastTo ⟨2, ![M, N]⟩ (shapeCast ⟨2, ![1, N]⟩ x1 h1) hb) = addRow x0 x1 := by
  funext j
  rw [addf_apply, broadcastTo_row, shapeCast_self, shapeCast_self]
  rfl

/-! ## An entry over a block of rows is the entry over the array at the matching row -/

theorem prod_congr {P : Nat} (x : (⟨2, ![P, K]⟩ : Shape).Idx → EReal) (w : (⟨2, ![K, N]⟩ : Shape).Idx → EReal)
    (X : (⟨2, ![M, K]⟩ : Shape).Idx → EReal) (W : (⟨2, ![K, N]⟩ : Shape).Idx → EReal)
    (y : (⟨2, ![P, N]⟩ : Shape).Idx) (i : (⟨2, ![M, N]⟩ : Shape).Idx)
    (hx : ∀ k : Fin K, x (ix2 (y 0) k) = X (ix2 (i 0) k)) (hw : ∀ k : Fin K, w (ix2 k (y 1)) = W (ix2 k (i 1))) :
    prod x w y = prod X W i :=
  Finset.sum_congr rfl fun k _ => by rw [hx k, hw k]

theorem layer_congr {P : Nat} (a : (⟨2, ![P, K]⟩ : Shape).Idx → EReal) (b : (⟨2, ![1, K]⟩ : Shape).Idx → EReal)
    (w : (⟨2, ![K, N]⟩ : Shape).Idx → EReal) (A : (⟨2, ![M, K]⟩ : Shape).Idx → EReal)
    (B : (⟨2, ![1, K]⟩ : Shape).Idx → EReal) (W : (⟨2, ![K, N]⟩ : Shape).Idx → EReal) (z : EReal)
    (y : (⟨2, ![P, N]⟩ : Shape).Idx) (i : (⟨2, ![M, N]⟩ : Shape).Idx)
    (ha : ∀ k : Fin K, a (ix2 (y 0) k) = A (ix2 (i 0) k)) (hb : ∀ k : Fin K, b (ix2 0 k) = B (ix2 0 k))
    (hw : ∀ k : Fin K, w (ix2 k (y 1)) = W (ix2 k (i 1))) :
    layer a b z w y = layer A B z W i :=
  Finset.sum_congr rfl fun k _ => by rw [ha k, hb k, hw k]

theorem addRow_congr {P : Nat} (x : (⟨2, ![P, N]⟩ : Shape).Idx → EReal) (b : (⟨2, ![1, N]⟩ : Shape).Idx → EReal)
    (X : (⟨2, ![M, N]⟩ : Shape).Idx → EReal) (B : (⟨2, ![1, N]⟩ : Shape).Idx → EReal)
    (y : (⟨2, ![P, N]⟩ : Shape).Idx) (i : (⟨2, ![M, N]⟩ : Shape).Idx)
    (hx : x y = X i) (hb : b (ix2 0 (y 1)) = B (ix2 0 (i 1))) :
    addRow x b y = addRow X B i := by
  unfold addRow
  rw [hx, hb]

end GcnDense

end
-- ==== Proof.Region0.lean ====
/-
  Region 0 of the idealized kernel (the first layer's matrix product), from blocks to the whole array.

  The grid has ten points; point `t` reads rows `10000·t … 10000·t + 9999` of the node features (all 64 columns) and the
  whole 64 × 32 weight matrix, and writes back the same rows of the output (all 32 columns). The body's store is the
  matrix product `∑ₖ x[r,k] · w[k,c]` of the blocks it loaded; an entry reads one row of the features only, so the block
  written at point `t` is block `t` of the product of the whole arrays. The ten blocks tile the output array (row `r` lies
  in the block of point `r / 10000`), so after the region the output array is the product of the arrays the region found.
-/
import proofs.«138533_j47699906790066_1_alg».proof.Proof.Gen.KernelIdeal.Frame
import proofs.«138533_j47699906790066_1_alg».proof.Proof.LibDense
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen GcnDense

-- the buffer contents the region is entered with: any
variable (V : (c : Dev nD) → (b : Ref sig .tc) → Buf (Elt Ideal) ((c : Thread nD τ).loc b))

theorem off_zero : (![0, 0] : Fin 2 → Nat) = fun _ => 0 := funext fun a => by fin_cases a <;> rfl

/-- The body's store, as a function of the blocks it loaded. -/
theorem store_eq (x0 : Vec Ideal S10000x64 .f32) (x1 : Vec Ideal S64x32 .f32) :
    k0_pay1 (F := Ideal) x0 x1 = prod x0 x1 := by
  unfold k0_pay1
  exact body_prod x0 x1 _

/-- The printed index maps over the grid: the features' block and the output's block move together along the rows,
    the weights stay at block (0, 0), and the output's row block is one of the ten. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem index_onto : ∀ q : Fin 10, ∃ t : Fin cfg0.N, win0_2.index t = ![q.val, 0] :=
  (by decide +kernel : ∀ q : Fin 10, ∃ t : Fin grid0.N, win0_2.index t = ![q.val, 0])

/-- A block's entry is the array's entry at the block's place. -/
theorem read_features (c : Dev nD) (t : Fin cfg0.N) (y : S10000x64.Idx) :
    iblk0 V c 0 t y = V c main_arg0 (((cfg0.win 0).blk t).view.emb y) := rfl
theorem read_weights (c : Dev nD) (t : Fin cfg0.N) (y : S64x32.Idx) :
    iblk0 V c 1 t y = V c main_arg2 (((cfg0.win 1).blk t).view.emb y) := rfl

/-- What point `t` writes back is block `t` of the product of the arrays the region found. -/
theorem flushed_eq (c : Dev nD) (t : Fin cfg0.N) :
    (dat0 (F := Ideal) V c).flushed 2 t = ((cfg0.win 2).blk t).view.read (Elt Ideal)
      (prod (V c main_arg0) (V c main_arg2)) := by
  show (cfg0.win 2).cut (grid0.coords t) ((dat0 V c).after 2 t) = _
  rw [after0_2]
  unfold out0_2
  rw [View.canon_unit_zero off_zero]
  simp only [View.ld_unit_zero (S := S10000x64) off_zero, View.ld_unit_zero (S := S64x32) off_zero]
  rw [store_eq]
  obtain ⟨e0, e1, e2, e3, e4, e5⟩ := index_facts t
  funext j
  show prod (iblk0 V c 0 t) (iblk0 V c 1 t) j
    = prod (V c main_arg0) (V c main_arg2) (((cfg0.win 2).blk t).view.emb j)
  refine prod_congr _ _ _ _ j _ (fun k => ?_) (fun k => ?_)
  · rw [read_features]
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · rw [read_weights]
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 32 + 1 * (j 1).val = win0_2.index t (1 : Fin 2) * 32 + 1 * (j 1).val
      omega

/-- An index of the output array lies in point `t`'s block iff each coordinate lies in the block's range. -/
theorem mem_block (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v30).slice (win0_2.rect t)).set ↔ _
  rw [View.set_slice_whole, Rect.mem_set_unit]
  exact Iff.rfl

/-- The ten blocks tile the output array: row `r` lies in the block of point `r / 10000`. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 32 ≤ (i 1).val ∧ (i 1).val < win0_2.index t (1 : Fin 2) * 32 + 32
    omega

/-- The output array after the region: the product of the arrays the region found. -/
theorem final (c : Dev nD) :
    (dat0 (F := Ideal) V c).arrAt 2 cfg0.N = prod (V c main_arg0) (V c main_arg2) :=
  (dat0 (F := Ideal) V c).arrAt_eq_of_cover 2 _ (fun t _ => flushed_eq V c t) cover

end Cert.KernelIdeal.Region0

end
-- ==== Proof.Region1.lean ====
/-
  Region 1 of the idealized kernel (the first fused layer), from blocks to the whole array.

  The grid has ten points; point `t` reads rows `10000·t … 10000·t + 9999` of the aggregated features (all 32 columns),
  the whole bias row and the whole 32 × 16 weight matrix, and writes back the same rows of the output (all 16 columns).
  The body's store is `∑ₖ max (a[r,k] + b[0,k]) 0 · w[k,c]` of the blocks it loaded; an entry of that sum reads one row
  of the features only, so the block written at point `t` is block `t` of the same expression over the whole arrays.
  The ten blocks tile the output array (row `r` lies in the block of point `r / 10000`), so after the region the output
  array is that expression of the arrays the region found, whatever they are.
-/
import proofs.«138533_j47699906790066_1_alg».proof.Proof.Gen.KernelIdeal.Frame
import proofs.«138533_j47699906790066_1_alg».proof.Proof.LibDense
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen GcnDense

-- the buffer contents the region is entered with: any
variable (V : (c : Dev nD) → (b : Ref sig .tc) → Buf (Elt Ideal) ((c : Thread nD τ).loc b))

theorem off_zero : (![0, 0] : Fin 2 → Nat) = fun _ => 0 := funext fun a => by fin_cases a <;> rfl

/-- The clamp's threshold: the zero word. -/
abbrev zero : EReal := Ideal.ofBits .f32 0x00000000#32

/-- The body's store, as a function of the blocks it loaded. -/
theorem store_eq (x0 : Vec Ideal S10000x32 .f32) (x1 : Vec Ideal S1x32 .f32) (x2 : Vec Ideal S32x16 .f32) :
    k1_pay1 (F := Ideal) x0 x1 x2 = layer x0 x1 zero x2 := by
  unfold k1_pay1
  exact body_layer x0 x1 x2 _ _ _ _

/-- The printed index maps over the grid: the features' block and the output's block move together along the rows,
    the bias row and the weights stay at block (0, 0), and the output's row block is one of the ten. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem index_onto : ∀ q : Fin 10, ∃ t : Fin cfg1.N, win1_3.index t = ![q.val, 0] :=
  (by decide +kernel : ∀ q : Fin 10, ∃ t : Fin grid1.N, win1_3.index t = ![q.val, 0])

/-- A block's entry is the array's entry at the block's place. -/
theorem read_features (c : Dev nD) (t : Fin cfg1.N) (y : S10000x32.Idx) :
    iblk1 V c 0 t y = V c main_v43 (((cfg1.win 0).blk t).view.emb y) := rfl
theorem read_bias (c : Dev nD) (t : Fin cfg1.N) (y : S1x32.Idx) :
    iblk1 V c 1 t y = V c main_v44 (((cfg1.win 1).blk t).view.emb y) := rfl
theorem read_weights (c : Dev nD) (t : Fin cfg1.N) (y : S32x16.Idx) :
    iblk1 V c 2 t y = V c main_arg4 (((cfg1.win 2).blk t).view.emb y) := rfl

/-- What point `t` writes back is block `t` of the layer's expression over the arrays the region found. -/
theorem flushed_eq (c : Dev nD) (t : Fin cfg1.N) :
    (dat1 (F := Ideal) V c).flushed 3 t = ((cfg1.win 3).blk t).view.read (Elt Ideal)
      (layer (V c main_v43) (V c main_v44) zero (V c main_arg4)) := by
  show (cfg1.win 3).cut (grid1.coords t) ((dat1 V c).after 3 t) = _
  rw [after1_3]
  unfold out1_3
  rw [View.canon_unit_zero off_zero]
  simp only [View.ld_unit_zero (S := S10000x32) off_zero, View.ld_unit_zero (S := S1x32) off_zero,
    View.ld_unit_zero (S := S32x16) off_zero]
  rw [store_eq]
  obtain ⟨e0, e1, e2, e3, e4, e5, e6, e7⟩ := index_facts t
  funext j
  show layer (iblk1 V c 0 t) (iblk1 V c 1 t) zero (iblk1 V c 2 t) j
    = layer (V c main_v43) (V c main_v44) zero (V c main_arg4) (((cfg1.win 3).blk t).view.emb j)
  refine layer_congr _ _ _ _ _ _ _ j _ (fun k => ?_) (fun k => ?_) (fun k => ?_)
  · rw [read_features]
    refine congrArg (V c main_v43) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 32 + 1 * k.val = k.val
      omega
  · rw [read_bias]
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 32 + 1 * k.val = k.val
      omega
  · rw [read_weights]
    refine congrArg (V c main_arg4) (funext fun a => Fin.ext ?_)
    match a with
    | ⟨0, _⟩ =>
      show win1_2.index t (0 : Fin 2) * 32 + 1 * k.val = k.val
      omega
    | ⟨1, _⟩ =>
      show win1_2.index t (1 : Fin 2) * 16 + 1 * (j 1).val = win1_3.index t (1 : Fin 2) * 16 + 1 * (j 1).val
      omega

/-- An index of the output array lies in point `t`'s block iff each coordinate lies in the block's range. -/
theorem mem_block (t : Fin cfg1.N) (i : S100000x16.Idx) :
    i ∈ ((cfg1.win 3).blk t).view.set ↔ ∀ a : Fin 2, win1_3.index t a * S10000x16.size a ≤ (i a).val
      ∧ (i a).val < win1_3.index t a * S10000x16.size a + S10000x16.size a := by
  show i ∈ ((View.whole main_v45).slice (win1_3.rect t)).set ↔ _
  rw [View.set_slice_whole, Rect.mem_set_unit]
  exact Iff.rfl

/-- The ten blocks tile the output array: row `r` lies in the block of point `r / 10000`. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 16 ≤ (i 1).val ∧ (i 1).val < win1_3.index t (1 : Fin 2) * 16 + 16
    omega

/-- The output array after the region: the layer's expression of the arrays the region found. -/
theorem final (c : Dev nD) :
    (dat1 (F := Ideal) V c).arrAt 3 cfg1.N = layer (V c main_v43) (V c main_v44) zero (V c main_arg4) :=
  (dat1 (F := Ideal) V c).arrAt_eq_of_cover 3 _ (fun t _ => flushed_eq V c t) cover

end Cert.KernelIdeal.Region1

end
-- ==== Proof.Region2.lean ====
/-
  Region 2 of the idealized kernel (the second fused layer), from blocks to the whole array.

  The grid has ten points; point `t` reads rows `10000·t … 10000·t + 9999` of the aggregated features (all 16 columns),
  the whole bias row and the whole 16 × 8 weight matrix, and writes back the same rows of the output (all 8 columns).
  The body's store is `∑ₖ max (a[r,k] + b[0,k]) 0 · w[k,c]` of the blocks it loaded; an entry of that sum reads one row
  of the features only, so the block written at point `t` is block `t` of the same expression over the whole arrays.
  The ten blocks tile the output array (row `r` lies in the block of point `r / 10000`), so after the region the output
  array is that expression of the arrays the region found, whatever they are.
-/
import proofs.«138533_j47699906790066_1_alg».proof.Proof.Gen.KernelIdeal.Frame
import proofs.«138533_j47699906790066_1_alg».proof.Proof.LibDense
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen GcnDense

-- the buffer contents the region is entered with: any
variable (V : (c : Dev nD) → (b : Ref sig .tc) → Buf (Elt Ideal) ((c : Thread nD τ).loc b))

theorem off_zero : (![0, 0] : Fin 2 → Nat) = fun _ => 0 := funext fun a => by fin_cases a <;> rfl

/-- The clamp's threshold: the zero word. -/
abbrev zero : EReal := Ideal.ofBits .f32 0x00000000#32

/-- The body's store, as a function of the blocks it loaded. -/
theorem store_eq (x0 : Vec Ideal S10000x16 .f32) (x1 : Vec Ideal S1x16 .f32) (x2 : Vec Ideal S16x8 .f32) :
    k2_pay1 (F := Ideal) x0 x1 x2 = layer x0 x1 zero x2 := by
  unfold k2_pay1
  exact body_layer x0 x1 x2 _ _ _ _

/-- The printed index maps over the grid: the features' block and the output's block move together along the rows,
    the bias row and the weights stay at block (0, 0), and the output's row block is one of the ten. -/
theorem index_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem index_onto : ∀ q : Fin 10, ∃ t : Fin cfg2.N, win2_3.index t = ![q.val, 0] :=
  (by decide +kernel : ∀ q : Fin 10, ∃ t : Fin grid2.N, win2_3.index t = ![q.val, 0])

/-- A block's entry is the array's entry at the block's place. -/
theorem read_features (c : Dev nD) (t : Fin cfg2.N) (y : S10000x16.Idx) :
    iblk2 V c 0 t y = V c main_v58 (((cfg2.win 0).blk t).view.emb y) := rfl
theorem read_bias (c : Dev nD) (t : Fin cfg2.N) (y : S1x16.Idx) :
    iblk2 V c 1 t y = V c main_v59 (((cfg2.win 1).blk t).view.emb y) := rfl
theorem read_weights (c : Dev nD) (t : Fin cfg2.N) (y : S16x8.Idx) :
    iblk2 V c 2 t y = V c main_arg6 (((cfg2.win 2).blk t).view.emb y) := rfl

/-- What point `t` writes back is block `t` of the layer's expression over the arrays the region found. -/
theorem flushed_eq (c : Dev nD) (t : Fin cfg2.N) :
    (dat2 (F := Ideal) V c).flushed 3 t = ((cfg2.win 3).blk t).view.read (Elt Ideal)
      (layer (V c main_v58) (V c main_v59) zero (V c main_arg6)) := by
  show (cfg2.win 3).cut (grid2.coords t) ((dat2 V c).after 3 t) = _
  rw [after2_3]
  unfold out2_3
  rw [View.canon_unit_zero off_zero]
  simp only [View.ld_unit_zero (S := S10000x16) off_zero, View.ld_unit_zero (S := S1x16) off_zero,
    View.ld_unit_zero (S := S16x8) off_zero]
  rw [store_eq]
  obtain ⟨e0, e1, e2, e3, e4, e5, e6, e7⟩ := index_facts t
  funext j
  show layer (iblk2 V c 0 t) (iblk2 V c 1 t) zero (iblk2 V c 2 t) j
    = layer (V c main_v58) (V c main_v59) zero (V c main_arg6) (((cfg2.win 3).blk t).view.emb j)
  refine layer_congr _ _ _ _ _ _ _ j _ (fun k => ?_) (fun k => ?_) (fun k => ?_)
  · rw [read_features]
    refine congrArg (V c main_v58) (funext fun a => Fin.ext ?_)
    match a with
    | ⟨0, _⟩ =>
      show win2_0.index t (0 : Fin 2) * 10000 + 1 * (j 0).val = win2_3.index t (0 : Fin 2) * 10000 + 1 * (j 0).val
      omega
    | ⟨1, _⟩ =>
      show win2_0.index t (1 : Fin 2) * 16 + 1 * k.val = k.val
      omega
  · rw [read_bias]
    refine congrArg (V c main_v59) (funext fun a => Fin.ext ?_)
    match a with
    | ⟨0, _⟩ =>
      show win2_1.index t (0 : Fin 2) * 1 + 1 * 0 = 0
      omega
    | ⟨1, _⟩ =>
      show win2_1.index t (1 : Fin 2) * 16 + 1 * k.val = k.val
      omega
  · rw [read_weights]
    refine congrArg (V c main_arg6) (funext fun a => Fin.ext ?_)
    match a with
    | ⟨0, _⟩ =>
      show win2_2.index t (0 : Fin 2) * 16 + 1 * k.val = k.val
      omega
    | ⟨1, _⟩ =>
      show win2_2.index t (1 : Fin 2) * 8 + 1 * (j 1).val = win2_3.index t (1 : Fin 2) * 8 + 1 * (j 1).val
      omega

/-- An index of the output array lies in point `t`'s block iff each coordinate lies in the block's range. -/
theorem mem_block (t : Fin cfg2.N) (i : S100000x8.Idx) :
    i ∈ ((cfg2.win 3).blk t).view.set ↔ ∀ a : Fin 2, win2_3.index t a * S10000x8.size a ≤ (i a).val
      ∧ (i a).val < win2_3.index t a * S10000x8.size a + S10000x8.size a := by
  show i ∈ ((View.whole main_v60).slice (win2_3.rect t)).set ↔ _
  rw [View.set_slice_whole, Rect.mem_set_unit]
  exact Iff.rfl

/-- The ten blocks tile the output array: row `r` lies in the block of point `r / 10000`. -/
theorem cover (i : S100000x8.Idx) :
    ∃ t : Fin cfg2.N, (cfg2.win 3).flush t = true ∧ i ∈ ((cfg2.win 3).blk t).view.set := by
  have hi0 : (i 0).val < 100000 := (i 0).isLt
  have hi1 : (i 1).val < 8 := (i 1).isLt
  obtain ⟨t, ht⟩ := index_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 8 ≤ (i 1).val ∧ (i 1).val < win2_3.index t (1 : Fin 2) * 8 + 8
    omega

/-- The output array after the region: the layer's expression of the arrays the region found. -/
theorem final (c : Dev nD) :
    (dat2 (F := Ideal) V c).arrAt 3 cfg2.N = layer (V c main_v58) (V c main_v59) zero (V c main_arg6) :=
  (dat2 (F := Ideal) V c).arrAt_eq_of_cover 3 _ (fun t _ => flushed_eq V c t) cover

end Cert.KernelIdeal.Region2

end
-- ==== Proof.Region3.lean ====
/-
  Region 3 of the idealized kernel (the third fused layer), from blocks to the whole array.

  The grid has ten points; point `t` reads rows `10000·t … 10000·t + 9999` of the aggregated features (all 8 columns),
  the whole bias row and the whole 8 × 64 weight matrix, and writes back the same rows of the output (all 64 columns).
  The body's store is `∑ₖ max (a[r,k] + b[0,k]) 0 · w[k,c]` of the blocks it loaded; an entry of that sum reads one row
  of the features only, so the block written at point `t` is block `t` of the same expression over the whole arrays.
  The ten blocks tile the output array (row `r` lies in the block of point `r / 10000`), so after the region the output
  array is that expression of the arrays the region found, whatever they are.
-/
import proofs.«138533_j47699906790066_1_alg».proof.Proof.Gen.KernelIdeal.Frame
import proofs.«138533_j47699906790066_1_alg».proof.Proof.LibDense
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen GcnDense

-- the buffer contents the region is entered with: any
variable (V : (c : Dev nD) → (b : Ref sig .tc) → Buf (Elt Ideal) ((c : Thread nD τ).loc b))

theorem off_zero : (![0, 0] : Fin 2 → Nat) = fun _ => 0 := funext fun a => by fin_cases a <;> rfl

/-- The clamp's threshold: the zero word. -/
abbrev zero : EReal := Ideal.ofBits .f32 0x00000000#32

/-- The body's store, as a function of the blocks it loaded. -/
theorem store_eq (x0 : Vec Ideal S10000x8 .f32) (x1 : Vec Ideal S1x8 .f32) (x2 : Vec Ideal S8x64 .f32) :
    k3_pay1 (F := Ideal) x0 x1 x2 = layer x0 x1 zero x2 := by
  unfold k3_pay1
  exact body_layer x0 x1 x2 _ _ _ _

/-- The printed index maps over the grid: the features' block and the output's block move together along the rows,
    the bias row and the weights stay at block (0, 0), and the output's row block is one of the ten. -/
theorem index_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem index_onto : ∀ q : Fin 10, ∃ t : Fin cfg3.N, win3_3.index t = ![q.val, 0] :=
  (by decide +kernel : ∀ q : Fin 10, ∃ t : Fin grid3.N, win3_3.index t = ![q.val, 0])

/-- A block's entry is the array's entry at the block's place. -/
theorem read_features (c : Dev nD) (t : Fin cfg3.N) (y : S10000x8.Idx) :
    iblk3 V c 0 t y = V c main_v73 (((cfg3.win 0).blk t).view.emb y) := rfl
theorem read_bias (c : Dev nD) (t : Fin cfg3.N) (y : S1x8.Idx) :
    iblk3 V c 1 t y = V c main_v74 (((cfg3.win 1).blk t).view.emb y) := rfl
theorem read_weights (c : Dev nD) (t : Fin cfg3.N) (y : S8x64.Idx) :
    iblk3 V c 2 t y = V c main_arg8 (((cfg3.win 2).blk t).view.emb y) := rfl

/-- What point `t` writes back is block `t` of the layer's expression over the arrays the region found. -/
theorem flushed_eq (c : Dev nD) (t : Fin cfg3.N) :
    (dat3 (F := Ideal) V c).flushed 3 t = ((cfg3.win 3).blk t).view.read (Elt Ideal)
      (layer (V c main_v73) (V c main_v74) zero (V c main_arg8)) := by
  show (cfg3.win 3).cut (grid3.coords t) ((dat3 V c).after 3 t) = _
  rw [after3_3]
  unfold out3_3
  rw [View.canon_unit_zero off_zero]
  simp only [View.ld_unit_zero (S := S10000x8) off_zero, View.ld_unit_zero (S := S1x8) off_zero,
    View.ld_unit_zero (S := S8x64) off_zero]
  rw [store_eq]
  obtain ⟨e0, e1, e2, e3, e4, e5, e6, e7⟩ := index_facts t
  funext j
  show layer (iblk3 V c 0 t) (iblk3 V c 1 t) zero (iblk3 V c 2 t) j
    = layer (V c main_v73) (V c main_v74) zero (V c main_arg8) (((cfg3.win 3).blk t).view.emb j)
  refine layer_congr _ _ _ _ _ _ _ j _ (fun k => ?_) (fun k => ?_) (fun k => ?_)
  · rw [read_features]
    refine congrArg (V c main_v73) (funext fun a => Fin.ext ?_)
    match a with
    | ⟨0, _⟩ =>
      show win3_0.index t (0 : Fin 2) * 10000 + 1 * (j 0).val = win3_3.index t (0 : Fin 2) * 10000 + 1 * (j 0).val
      omega
    | ⟨1, _⟩ =>
      show win3_0.index t (1 : Fin 2) * 8 + 1 * k.val = k.val
      omega
  · rw [read_bias]
    refine congrArg (V c main_v74) (funext fun a => Fin.ext ?_)
    match a with
    | ⟨0, _⟩ =>
      show win3_1.index t (0 : Fin 2) * 1 + 1 * 0 = 0
      omega
    | ⟨1, _⟩ =>
      show win3_1.index t (1 : Fin 2) * 8 + 1 * k.val = k.val
      omega
  · rw [read_weights]
    refine congrArg (V c main_arg8) (funext fun a => Fin.ext ?_)
    match a with
    | ⟨0, _⟩ =>
      show win3_2.index t (0 : Fin 2) * 8 + 1 * k.val = k.val
      omega
    | ⟨1, _⟩ =>
      show win3_2.index t (1 : Fin 2) * 64 + 1 * (j 1).val = win3_3.index t (1 : Fin 2) * 64 + 1 * (j 1).val
      omega

/-- An index of the output array lies in point `t`'s block iff each coordinate lies in the block's range. -/
theorem mem_block (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v75).slice (win3_3.rect t)).set ↔ _
  rw [View.set_slice_whole, Rect.mem_set_unit]
  exact Iff.rfl

/-- The ten blocks tile the output array: row `r` lies in the block of point `r / 10000`. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := index_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_block]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 64 ≤ (i 1).val ∧ (i 1).val < win3_3.index t (1 : Fin 2) * 64 + 64
    omega

/-- The output array after the region: the layer's expression of the arrays the region found. -/
theorem final (c : Dev nD) :
    (dat3 (F := Ideal) V c).arrAt 3 cfg3.N = layer (V c main_v73) (V c main_v74) zero (V c main_arg8) :=
  (dat3 (F := Ideal) V c).arrAt_eq_of_cover 3 _ (fun t _ => flushed_eq V c t) cover

end Cert.KernelIdeal.Region3

end
-- ==== Proof.Region4.lean ====
/-
  Region 4 of the idealized kernel (the last layer's bias), from blocks to the whole array.

  The grid has ten points; point `t` reads rows `10000·t … 10000·t + 9999` of the aggregated features (all 64 columns)
  and the whole bias row, and writes back the same rows of the output. The body's store is `x[r,c] + b[0,c]` of the blocks
  it loaded; an entry reads the same entry of the features and one entry of the bias row, so the block written at point
  `t` is block `t` of the same expression over the whole arrays. The ten blocks tile the output array (row `r` lies in
  the block of point `r / 10000`), so after the region the output array is that expression of the arrays the region found.
-/
import proofs.«138533_j47699906790066_1_alg».proof.Proof.Gen.KernelIdeal.Frame
import proofs.«138533_j47699906790066_1_alg».proof.Proof.LibDense
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen GcnDense

-- the buffer contents the region is entered with: any
variable (V : (c : Dev nD) → (b : Ref sig .tc) → Buf (Elt Ideal) ((c : Thread nD τ).loc b))

theorem off_zero : (![0, 0] : Fin 2 → Nat) = fun _ => 0 := funext fun a => by fin_cases a <;> rfl

/-- The body's store, as a function of the blocks it loaded. -/
theorem store_eq (x0 : Vec Ideal S10000x64 .f32) (x1 : Vec Ideal S1x64 .f32) :
    k4_pay1 (F := Ideal) x0 x1 = addRow x0 x1 := by
  unfold k4_pay1
  exact body_addRow x0 x1 _ _ _

/-- The printed index maps over the grid: the features' block and the output's block move together along the rows,
    the bias row stays at block (0, 0), and the output's row block is one of the ten. -/
theorem index_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem index_onto : ∀ q : Fin 10, ∃ t : Fin cfg4.N, win4_2.index t = ![q.val, 0] :=
  (by decide +kernel : ∀ q : Fin 10, ∃ t : Fin grid4.N, win4_2.index t = ![q.val, 0])

/-- A block's entry is the array's entry at the block's place. -/
theorem read_features (c : Dev nD) (t : Fin cfg4.N) (y : S10000x64.Idx) :
    iblk4 V c 0 t y = V c main_v88 (((cfg4.win 0).blk t).view.emb y) := rfl
theorem read_bias (c : Dev nD) (t : Fin cfg4.N) (y : S1x64.Idx) :
    iblk4 V c 1 t y = V c main_v89 (((cfg4.win 1).blk t).view.emb y) := rfl

/-- What point `t` writes back is block `t` of the biased features over the arrays the region found. -/
theorem flushed_eq (c : Dev nD) (t : Fin cfg4.N) :
    (dat4 (F := Ideal) V c).flushed 2 t = ((cfg4.win 2).blk t).view.read (Elt Ideal)
      (addRow (V c main_v88) (V c main_v89)) := by
  show (cfg4.win 2).cut (grid4.coords t) ((dat4 V c).after 2 t) = _
  rw [after4_2]
  unfold out4_2
  rw [View.canon_unit_zero off_zero]
  simp only [View.ld_unit_zero (S := S10000x64) off_zero, View.ld_unit_zero (S := S1x64) off_zero]
  rw [store_eq]
  obtain ⟨e0, e1, e2, e3, e4, e5⟩ := index_facts t
  funext j
  show addRow (iblk4 V c 0 t) (iblk4 V c 1 t) j
    = addRow (V c main_v88) (V c main_v89) (((cfg4.win 2).blk t).view.emb j)
  refine addRow_congr _ _ _ _ j _ ?_ ?_
  · rw [read_features]
    refine congrArg (V c main_v88) (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 64 + 1 * (j 1).val = win4_2.index t (1 : Fin 2) * 64 + 1 * (j 1).val
      omega
  · rw [read_bias]
    refine congrArg (V c main_v89) (funext fun a => Fin.ext ?_)
    match a with
    | ⟨0, _⟩ =>
      show win4_1.index t (0 : Fin 2) * 1 + 1 * 0 = 0
      omega
    | ⟨1, _⟩ =>
      show win4_1.index t (1 : Fin 2) * 64 + 1 * (j 1).val = win4_2.index t (1 : Fin 2) * 64 + 1 * (j 1).val
      omega

/-- An index of the output array lies in point `t`'s block iff each coordinate lies in the block's range. -/
theorem mem_block (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v90).slice (win4_2.rect t)).set ↔ _
  rw [View.set_slice_whole, Rect.mem_set_unit]
  exact Iff.rfl

/-- The ten blocks tile the output array: row `r` lies in the block of point `r / 10000`. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- The output array after the region: the biased features over the arrays the region found. -/
theorem final (c : Dev nD) :
    (dat4 (F := Ideal) V c).arrAt 2 cfg4.N = addRow (V c main_v88) (V c main_v89) :=
  (dat4 (F := Ideal) V c).arrAt_eq_of_cover 2 _ (fun t _ => flushed_eq V c t) cover

end Cert.KernelIdeal.Region4

end
-- ==== Proof.Glue.lean ====
/-
  The graph side of the computation, shared word for word by the kernel's host code and the reference, at the ideal
  instance: named once here and never opened in the proofs that use it.

  From the edge array `e` (two rows of 3,200,000 node indices): `srcOf e` and `dstOf e` are the source and destination lists
  with one self-loop per node appended (3,300,000 entries); `wrap v` adds the node count to a negative index (the
  gather's index convention); `normOf e` is the symmetric normalisation `dinv[src] · dinv[dst]` per edge, where `dinv` is
  the reciprocal square root of the in-degree where the degree is positive and zero elsewhere.
  `aggregateN h s d n` is one message-passing step on features `h` of width `N`: gather the rows of `h` at the wrapped
  sources, scale each gathered row by its edge's norm, and add the scaled rows into a zero array at the destinations.
  `reference` is the reference program's whole result expression over these: four layers of (product with the weights,
  aggregate, add the bias), the first three followed by a clamp at zero.
-/
import proofs.«138533_j47699906790066_1_alg».proof.ReferenceIdeal
import proofs.«138533_j47699906790066_1_alg».proof.Proof.Gen.ReferenceIdeal
import Idealize.ShloMosaic.PureOps.Ideal

set_option maxRecDepth 8192

noncomputable section

namespace Cert.ReferenceIdeal.Glue

open Idealize.ShloMosaic Cert.ReferenceIdeal

open Cert.ReferenceIdeal.Facts₀ Cert.ReferenceIdeal.Facts

abbrev Edges := (⟨S2x3200000, .i32⟩ : BufTy).Contents (Elt Ideal)
abbrev IdxList := (⟨S3300000, .i32⟩ : BufTy).Contents (Elt Ideal)
abbrev EdgeScale := FVec Ideal S3300000 .f32

/-- Source nodes of the edges, then every node once (the self-loops). -/
def srcOf (e : Edges) : IdxList :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Destination nodes of the edges, then every node once (the self-loops). -/
def dstOf (e : Edges) : IdxList :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative index counts from the end: add the node count to it. -/
def wrap (v : IdxList) : IdxList :=
  select (cmpi .slt v (broadcastInDim S3300000 ![] bcast_S_S3300000 (constantI S_ 32 0#32))) (addi v (broadcastInDim S3300000 ![] bcast_S_S3300000 (constantI S_ 32 100000#32))) v

/-- The in-degree of every node, counting the self-loop: ones added at the destinations into zeros. -/
def degOf (d : IdxList) : FVec Ideal S100000 .f32 :=
  Host.scatterAdd (F := Ideal) scatter_S100000_S3300000x1_S3300000_n_0_0_1 (broadcastInDim S100000 ![] bcast_S_S100000 (constant (F := Ideal) S_ .f32 0x00000000#32)) (broadcastInDim S3300000x1 ![0] bcast_S3300000_S3300000x1_0 d) (broadcastInDim S3300000 ![] bcast_S_S3300000 (constant (F := Ideal) S_ .f32 0x3F800000#32))

/-- The reciprocal square root of a degree where it is positive, zero elsewhere. -/
def dinvOf (g : FVec Ideal S100000 .f32) : FVec Ideal S100000 .f32 :=
  select (cmpf (F := Ideal) .ogt g (broadcastInDim S100000 ![] bcast_S_S100000 (constant (F := Ideal) S_ .f32 0x00000000#32))) (Host.rsqrt (F := Ideal) g) (broadcastInDim S100000 ![] bcast_S_S100000 (id (constant (F := Ideal) S_ .f32 0x00000000#32)))

/-- A node vector read at both ends of every edge and multiplied: `v[src] · v[dst]`. -/
def scaleOf (v : FVec Ideal S100000 .f32) (s d : IdxList) : EdgeScale :=
  mulf (F := Ideal) (Host.gather gather_S100000_S3300000x1_S3300000_n_0_n_n_0_1_1 v (broadcastInDim S3300000x1 ![0] bcast_S3300000_S3300000x1_0 (wrap s))) (Host.gather gather_S100000_S3300000x1_S3300000_n_0_n_n_0_1_1 v (broadcastInDim S3300000x1 ![0] bcast_S3300000_S3300000x1_0 (wrap d)))

/-- The per-edge normalisation `dinv[src] · dinv[dst]`, `dinv` the reciprocal square root of the positive in-degrees. -/
def normOf (e : Edges) : EdgeScale :=
  scaleOf (dinvOf (degOf (dstOf e))) (srcOf e) (dstOf e)

/-- One message-passing step on features of width 32: gather at the wrapped sources, scale by the norm, add at the
    destinations into zeros. -/
def aggregate32 (h : FVec Ideal S100000x32 .f32) (s d : IdxList) (n : EdgeScale) : FVec Ideal S100000x32 .f32 :=
  Host.scatterAdd (F := Ideal) scatter_S100000x32_S3300000x1_S3300000x32_1_0_0_1 (broadcastInDim S100000x32 ![] bcast_S_S100000x32 (constant (F := Ideal) S_ .f32 0x00000000#32)) (broadcastInDim S3300000x1 ![0] bcast_S3300000_S3300000x1_0 d) (mulf (F := Ideal) (Host.gather gather_S100000x32_S3300000x1_S3300000x32_1_0_n_n_0_1_132 h (broadcastInDim S3300000x1 ![0] bcast_S3300000_S3300000x1_0 (wrap s))) (broadcastInDim S3300000x32 ![0, 1] bcast_S3300000x1_S3300000x32_0_1 (broadcastInDim S3300000x1 ![0] bcast_S3300000_S3300000x1_0 n)))

/-- One message-passing step on features of width 16: gather at the wrapped sources, scale by the norm, add at the
    destinations into zeros. -/
def aggregate16 (h : FVec Ideal S100000x16 .f32) (s d : IdxList) (n : EdgeScale) : FVec Ideal S100000x16 .f32 :=
  Host.scatterAdd (F := Ideal) scatter_S100000x16_S3300000x1_S3300000x16_1_0_0_1 (broadcastInDim S100000x16 ![] bcast_S_S100000x16 (constant (F := Ideal) S_ .f32 0x00000000#32)) (broadcastInDim S3300000x1 ![0] bcast_S3300000_S3300000x1_0 d) (mulf (F := Ideal) (Host.gather gather_S100000x16_S3300000x1_S3300000x16_1_0_n_n_0_1_116 h (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 n)))

/-- One message-passing step on features of width 8: gather at the wrapped sources, scale by the norm, add at the
    destinations into zeros. -/
def aggregate8 (h : FVec Ideal S100000x8 .f32) (s d : IdxList) (n : EdgeScale) : FVec Ideal S100000x8 .f32 :=
  Host.scatterAdd (F := Ideal) scatter_S100000x8_S3300000x1_S3300000x8_1_0_0_1 (broadcastInDim S100000x8 ![] bcast_S_S100000x8 (constant (F := Ideal) S_ .f32 0x00000000#32)) (broadcastInDim S3300000x1 ![0] bcast_S3300000_S3300000x1_0 d) (mulf (F := Ideal) (Host.gather gather_S100000x8_S3300000x1_S3300000x8_1_0_n_n_0_1_18 h (broadcastInDim S3300000x1 ![0] bcast_S3300000_S3300000x1_0 (wrap s))) (broadcastInDim S3300000x8 ![0, 1] bcast_S3300000x1_S3300000x8_0_1 (broadcastInDim S3300000x1 ![0] bcast_S3300000_S3300000x1_0 n)))

/-- One message-passing step on features of width 64: gather at the wrapped sources, scale by the norm, add at the
    destinations into zeros. -/
def aggregate64 (h : FVec Ideal S100000x64 .f32) (s d : IdxList) (n : EdgeScale) : FVec Ideal S100000x64 .f32 :=
  Host.scatterAdd (F := Ideal) scatter_S100000x64_S3300000x1_S3300000x64_1_0_0_1 (broadcastInDim S100000x64 ![] bcast_S_S100000x64 (constant (F := Ideal) S_ .f32 0x00000000#32)) (broadcastInDim S3300000x1 ![0] bcast_S3300000_S3300000x1_0 d) (mulf (F := Ideal) (Host.gather gather_S100000x64_S3300000x1_S3300000x64_1_0_n_n_0_1_164 h (broadcastInDim S3300000x1 ![0] bcast_S3300000_S3300000x1_0 (wrap s))) (broadcastInDim S3300000x64 ![0, 1] bcast_S3300000x1_S3300000x64_0_1 (broadcastInDim S3300000x1 ![0] bcast_S3300000_S3300000x1_0 n)))

/-- The reference's result expression. -/
def reference (x0 : FVec Ideal S100000x64 .f32) (e : Edges) (x2 : FVec Ideal S64x32 .f32) (x3 : FVec Ideal S32 .f32)
    (x4 : FVec Ideal S32x16 .f32) (x5 : FVec Ideal S16 .f32) (x6 : FVec Ideal S16x8 .f32) (x7 : FVec Ideal S8 .f32)
    (x8 : FVec Ideal S8x64 .f32) (x9 : FVec Ideal S64 .f32) : FVec Ideal S100000x64 .f32 :=
  addf (F := Ideal) (aggregate64 (Host.dotGeneral (F := Ideal) dot_S100000x8_S8x64_S100000x64_1_0_0_1_n_n none (maximumf (F := Ideal) (addf (F := Ideal) (aggregate8 (Host.dotGeneral (F := Ideal) dot_S100000x16_S16x8_S100000x8_1_0_0_1_n_n none (maximumf (F := Ideal) (addf (F := Ideal) (aggregate16 (Host.dotGeneral (F := Ideal) dot_S100000x32_S32x16_S100000x16_1_0_0_1_n_n none (maximumf (F := Ideal) (addf (F := Ideal) (aggregate32 (Host.dotGeneral (F := Ideal) dot_S100000x64_S64x32_S100000x32_1_0_0_1_n_n none x0 x2) (srcOf e) (dstOf e) (normOf e)) (broadcastInDim S100000x32 ![0, 1] bcast_S1x32_S100000x32_0_1 (broadcastInDim S1x32 ![1] bcast_S32_S1x32_1 x3))) (broadcastInDim S100000x32 ![] bcast_S_S100000x32 (constant (F := Ideal) S_ .f32 0x00000000#32))) x4) (srcOf e) (dstOf e) (normOf e)) (broadcastInDim S100000x16 ![0, 1] bcast_S1x16_S100000x16_0_1 (broadcastInDim S1x16 ![1] bcast_S16_S1x16_1 x5))) (broadcastInDim S100000x16 ![] bcast_S_S100000x16 (constant (F := Ideal) S_ .f32 0x00000000#32))) x6) (srcOf e) (dstOf e) (normOf e)) (broadcastInDim S100000x8 ![0, 1] bcast_S1x8_S100000x8_0_1 (broadcastInDim S1x8 ![1] bcast_S8_S1x8_1 x7))) (broadcastInDim S100000x8 ![] bcast_S_S100000x8 (constant (F := Ideal) S_ .f32 0x00000000#32))) x8) (srcOf e) (dstOf e) (normOf e)) (broadcastInDim S100000x64 ![0, 1] bcast_S1x64_S100000x64_0_1 (broadcastInDim S1x64 ![1] bcast_S64_S1x64_1 x9))

end Cert.ReferenceIdeal.Glue

end
-- ==== Proof.Stretches.lean ====
/-
  The kernel's stretches of host operations, each read as what it leaves in the buffers that matter, from ANY buffer
  contents `V` at its start.

  Before the first region: the edge lists with self-loops, the positive-degree mask and the reciprocal square roots of
  the degrees, then `dinv` (the selection between them), then the per-edge norm. Between regions: one message-passing
  step on the previous region's output, and the next bias vector laid out as one row. A buffer that a stretch does not
  write keeps its contents.
-/
import proofs.«138533_j47699906790066_1_alg».proof.Proof.Gen.KernelIdeal.Launch
import proofs.«138533_j47699906790066_1_alg».proof.Proof.Glue
import Idealize.ShloMosaic.Lib.StableHlo.Run

set_option maxRecDepth 16384
set_option maxHeartbeats 2000000

noncomputable section

namespace Cert.KernelIdeal.Stretches

open Idealize.ShloMosaic Idealize.ShloMosaic.TcCoe Idealize.ShloMosaic.StableHlo Idealize.SL.Sem
open Cert.KernelIdeal Cert.KernelIdeal.Gen
open Cert.ReferenceIdeal.Glue (srcOf dstOf wrap degOf dinvOf scaleOf normOf aggregate32 aggregate16 aggregate8 aggregate64)

variable (V : Valuation τ sig (Elt Ideal))

/-! ## The first two stretches: edge lists and `dinv` -/

theorem src_01 : StableHlo.after hostOps0_1 (StableHlo.after hostOps0 V) (Proc.devRef .tc main_v3) = srcOf (V (Proc.devRef .tc main_arg1)) := by
  dsimp only [hostOps0, hostOps0_1, hostOps0_2, hostOps1, hostOps2, hostOps3, hostOps4]
  after_results
  rfl

theorem dst_01 : StableHlo.after hostOps0_1 (StableHlo.after hostOps0 V) (Proc.devRef .tc main_v6) = dstOf (V (Proc.devRef .tc main_arg1)) := by
  dsimp only [hostOps0, hostOps0_1, hostOps0_2, hostOps1, hostOps2, hostOps3, hostOps4]
  after_results
  rfl

theorem pos_0 : StableHlo.after hostOps0 V (Proc.devRef .tc main_v12)
    = cmpf (F := Ideal) .ogt (degOf (dstOf (V (Proc.devRef .tc main_arg1)))) (broadcastInDim S100000 ![] bcast_S_S100000 (constant (F := Ideal) S_ .f32 0x00000000#32)) := by
  dsimp only [hostOps0]
  after_results
  rfl

theorem rsq_0 : StableHlo.after hostOps0 V (Proc.devRef .tc main_v13) = Host.rsqrt (F := Ideal) (degOf (dstOf (V (Proc.devRef .tc main_arg1)))) := by
  dsimp only [hostOps0]
  after_results
  rfl

theorem cst_0 : StableHlo.after hostOps0 V (Proc.devRef .tc main_cst_2) = constant (F := Ideal) S_ .f32 0x00000000#32 := by
  dsimp only [hostOps0]
  after_results

theorem sel_1 : StableHlo.after hostOps0_1 V (Proc.devRef .tc main_v14)
    = select (V (Proc.devRef .tc main_v12)) (V (Proc.devRef .tc main_v13)) (broadcastInDim S100000 ![] bcast_S_S100000 (id (V (Proc.devRef .tc main_cst_2)))) := by
  dsimp only [hostOps0_1]
  after_results
  rfl

theorem keep_01_arg0 : StableHlo.after hostOps0_1 (StableHlo.after hostOps0 V) (Proc.devRef .tc main_arg0) = V (Proc.devRef .tc main_arg0) := by
  dsimp only [hostOps0, hostOps0_1, hostOps0_2, hostOps1, hostOps2, hostOps3, hostOps4]
  after_results

theorem keep_01_arg2 : StableHlo.after hostOps0_1 (StableHlo.after hostOps0 V) (Proc.devRef .tc main_arg2) = V (Proc.devRef .tc main_arg2) := by
  dsimp only [hostOps0, hostOps0_1, hostOps0_2, hostOps1, hostOps2, hostOps3, hostOps4]
  after_results

theorem keep_01_arg3 : StableHlo.after hostOps0_1 (StableHlo.after hostOps0 V) (Proc.devRef .tc main_arg3) = V (Proc.devRef .tc main_arg3) := by
  dsimp only [hostOps0, hostOps0_1, hostOps0_2, hostOps1, hostOps2, hostOps3, hostOps4]
  after_results

theorem keep_01_arg4 : StableHlo.after hostOps0_1 (StableHlo.after hostOps0 V) (Proc.devRef .tc main_arg4) = V (Proc.devRef .tc main_arg4) := by
  dsimp only [hostOps0, hostOps0_1, hostOps0_2, hostOps1, hostOps2, hostOps3, hostOps4]
  after_results

theorem keep_01_arg5 : StableHlo.after hostOps0_1 (StableHlo.after hostOps0 V) (Proc.devRef .tc main_arg5) = V (Proc.devRef .tc main_arg5) := by
  dsimp only [hostOps0, hostOps0_1, hostOps0_2, hostOps1, hostOps2, hostOps3, hostOps4]
  after_results

theorem keep_01_arg6 : StableHlo.after hostOps0_1 (StableHlo.after hostOps0 V) (Proc.devRef .tc main_arg6) = V (Proc.devRef .tc main_arg6) := by
  dsimp only [hostOps0, hostOps0_1, hostOps0_2, hostOps1, hostOps2, hostOps3, hostOps4]
  after_results

theorem keep_01_arg7 : StableHlo.after hostOps0_1 (StableHlo.after hostOps0 V) (Proc.devRef .tc main_arg7) = V (Proc.devRef .tc main_arg7) := by
  dsimp only [hostOps0, hostOps0_1, hostOps0_2, hostOps1, hostOps2, hostOps3, hostOps4]
  after_results

theorem keep_01_arg8 : StableHlo.after hostOps0_1 (StableHlo.after hostOps0 V) (Proc.devRef .tc main_arg8) = V (Proc.devRef .tc main_arg8) := by
  dsimp only [hostOps0, hostOps0_1, hostOps0_2, hostOps1, hostOps2, hostOps3, hostOps4]
  after_results

theorem keep_01_arg9 : StableHlo.after hostOps0_1 (StableHlo.after hostOps0 V) (Proc.devRef .tc main_arg9) = V (Proc.devRef .tc main_arg9) := by
  dsimp only [hostOps0, hostOps0_1, hostOps0_2, hostOps1, hostOps2, hostOps3, hostOps4]
  after_results

/-! ## The third stretch: the per-edge norm -/

theorem scale_02 : StableHlo.after hostOps0_2 V (Proc.devRef .tc main_v29) = scaleOf (V (Proc.devRef .tc main_v14)) (V (Proc.devRef .tc main_v3)) (V (Proc.devRef .tc main_v6)) := by
  dsimp only [hostOps0, hostOps0_1, hostOps0_2, hostOps1, hostOps2, hostOps3, hostOps4]
  after_results
  rfl

theorem keep_02_v3 : StableHlo.after hostOps0_2 V (Proc.devRef .tc main_v3) = V (Proc.devRef .tc main_v3) := by
  dsimp only [hostOps0, hostOps0_1, hostOps0_2, hostOps1, hostOps2, hostOps3, hostOps4]
  after_results

theorem keep_02_v6 : StableHlo.after hostOps0_2 V (Proc.devRef .tc main_v6) = V (Proc.devRef .tc main_v6) := by
  dsimp only [hostOps0, hostOps0_1, hostOps0_2, hostOps1, hostOps2, hostOps3, hostOps4]
  after_results

theorem keep_02_arg0 : StableHlo.after hostOps0_2 V (Proc.devRef .tc main_arg0) = V (Proc.devRef .tc main_arg0) := by
  dsimp only [hostOps0, hostOps0_1, hostOps0_2, hostOps1, hostOps2, hostOps3, hostOps4]
  after_results

theorem keep_02_arg2 : StableHlo.after hostOps0_2 V (Proc.devRef .tc main_arg2) = V (Proc.devRef .tc main_arg2) := by
  dsimp only [hostOps0, hostOps0_1, hostOps0_2, hostOps1, hostOps2, hostOps3, hostOps4]
  after_results

theorem keep_02_arg3 : StableHlo.after hostOps0_2 V (Proc.devRef .tc main_arg3) = V (Proc.devRef .tc main_arg3) := by
  dsimp only [hostOps0, hostOps0_1, hostOps0_2, hostOps1, hostOps2, hostOps3, hostOps4]
  after_results

theorem keep_02_arg4 : StableHlo.after hostOps0_2 V (Proc.devRef .tc main_arg4) = V (Proc.devRef .tc main_arg4) := by
  dsimp only [hostOps0, hostOps0_1, hostOps0_2, hostOps1, hostOps2, hostOps3, hostOps4]
  after_results

theorem keep_02_arg5 : StableHlo.after hostOps0_2 V (Proc.devRef .tc main_arg5) = V (Proc.devRef .tc main_arg5) := by
  dsimp only [hostOps0, hostOps0_1, hostOps0_2, hostOps1, hostOps2, hostOps3, hostOps4]
  after_results

theorem keep_02_arg6 : StableHlo.after hostOps0_2 V (Proc.devRef .tc main_arg6) = V (Proc.devRef .tc main_arg6) := by
  dsimp only [hostOps0, hostOps0_1, hostOps0_2, hostOps1, hostOps2, hostOps3, hostOps4]
  after_results

theorem keep_02_arg7 : StableHlo.after hostOps0_2 V (Proc.devRef .tc main_arg7) = V (Proc.devRef .tc main_arg7) := by
  dsimp only [hostOps0, hostOps0_1, hostOps0_2, hostOps1, hostOps2, hostOps3, hostOps4]
  after_results

theorem keep_02_arg8 : StableHlo.after hostOps0_2 V (Proc.devRef .tc main_arg8) = V (Proc.devRef .tc main_arg8) := by
  dsimp only [hostOps0, hostOps0_1, hostOps0_2, hostOps1, hostOps2, hostOps3, hostOps4]
  after_results

theorem keep_02_arg9 : StableHlo.after hostOps0_2 V (Proc.devRef .tc main_arg9) = V (Proc.devRef .tc main_arg9) := by
  dsimp only [hostOps0, hostOps0_1, hostOps0_2, hostOps1, hostOps2, hostOps3, hostOps4]
  after_results

/-! ## The stretch before region 1: aggregate width 32, and the bias row -/

theorem agg_1 : StableHlo.after hostOps1 V (Proc.devRef .tc main_v43) = aggregate32 (V (Proc.devRef .tc main_v30)) (V (Proc.devRef .tc main_v3)) (V (Proc.devRef .tc main_v6)) (V (Proc.devRef .tc main_v29)) := by
  dsimp only [hostOps0, hostOps0_1, hostOps0_2, hostOps1, hostOps2, hostOps3, hostOps4]
  after_results
  rfl

theorem row_1 : StableHlo.after hostOps1 V (Proc.devRef .tc main_v44) = shapeCast S1x32 (V (Proc.devRef .tc main_arg3)) shapeCasts_S32_S1x32 := by
  dsimp only [hostOps0, hostOps0_1, hostOps0_2, hostOps1, hostOps2, hostOps3, hostOps4]
  after_results
  rfl

theorem keep_1_v3 : StableHlo.after hostOps1 V (Proc.devRef .tc main_v3) = V (Proc.devRef .tc main_v3) := by
  dsimp only [hostOps0, hostOps0_1, hostOps0_2, hostOps1, hostOps2, hostOps3, hostOps4]
  after_results

theorem keep_1_v6 : StableHlo.after hostOps1 V (Proc.devRef .tc main_v6) = V (Proc.devRef .tc main_v6) := by
  dsimp only [hostOps0, hostOps0_1, hostOps0_2, hostOps1, hostOps2, hostOps3, hostOps4]
  after_results

theorem keep_1_v29 : StableHlo.after hostOps1 V (Proc.devRef .tc main_v29) = V (Proc.devRef .tc main_v29) := by
  dsimp only [hostOps0, hostOps0_1, hostOps0_2, hostOps1, hostOps2, hostOps3, hostOps4]
  after_results

theorem keep_1_arg4 : StableHlo.after hostOps1 V (Proc.devRef .tc main_arg4) = V (Proc.devRef .tc main_arg4) := by
  dsimp only [hostOps0, hostOps0_1, hostOps0_2, hostOps1, hostOps2, hostOps3, hostOps4]
  after_results

theorem keep_1_arg5 : StableHlo.after hostOps1 V (Proc.devRef .tc main_arg5) = V (Proc.devRef .tc main_arg5) := by
  dsimp only [hostOps0, hostOps0_1, hostOps0_2, hostOps1, hostOps2, hostOps3, hostOps4]
  after_results

theorem keep_1_arg6 : StableHlo.after hostOps1 V (Proc.devRef .tc main_arg6) = V (Proc.devRef .tc main_arg6) := by
  dsimp only [hostOps0, hostOps0_1, hostOps0_2, hostOps1, hostOps2, hostOps3, hostOps4]
  after_results

theorem keep_1_arg7 : StableHlo.after hostOps1 V (Proc.devRef .tc main_arg7) = V (Proc.devRef .tc main_arg7) := by
  dsimp only [hostOps0, hostOps0_1, hostOps0_2, hostOps1, hostOps2, hostOps3, hostOps4]
  after_results

theorem keep_1_arg8 : StableHlo.after hostOps1 V (Proc.devRef .tc main_arg8) = V (Proc.devRef .tc main_arg8) := by
  dsimp only [hostOps0, hostOps0_1, hostOps0_2, hostOps1, hostOps2, hostOps3, hostOps4]
  after_results

theorem keep_1_arg9 : StableHlo.after hostOps1 V (Proc.devRef .tc main_arg9) = V (Proc.devRef .tc main_arg9) := by
  dsimp only [hostOps0, hostOps0_1, hostOps0_2, hostOps1, hostOps2, hostOps3, hostOps4]
  after_results

/-! ## The stretch before region 2: aggregate width 16, and the bias row -/

theorem agg_2 : StableHlo.after hostOps2 V (Proc.devRef .tc main_v58) = aggregate16 (V (Proc.devRef .tc main_v45)) (V (Proc.devRef .tc main_v3)) (V (Proc.devRef .tc main_v6)) (V (Proc.devRef .tc main_v29)) := by
  dsimp only [hostOps0, hostOps0_1, hostOps0_2, hostOps1, hostOps2, hostOps3, hostOps4]
  after_results
  rfl

theorem row_2 : StableHlo.after hostOps2 V (Proc.devRef .tc main_v59) = shapeCast S1x16 (V (Proc.devRef .tc main_arg5)) shapeCasts_S16_S1x16 := by
  dsimp only [hostOps0, hostOps0_1, hostOps0_2, hostOps1, hostOps2, hostOps3, hostOps4]
  after_results
  rfl

theorem keep_2_v3 : StableHlo.after hostOps2 V (Proc.devRef .tc main_v3) = V (Proc.devRef .tc main_v3) := by
  dsimp only [hostOps0, hostOps0_1, hostOps0_2, hostOps1, hostOps2, hostOps3, hostOps4]
  after_results

theorem keep_2_v6 : StableHlo.after hostOps2 V (Proc.devRef .tc main_v6) = V (Proc.devRef .tc main_v6) := by
  dsimp only [hostOps0, hostOps0_1, hostOps0_2, hostOps1, hostOps2, hostOps3, hostOps4]
  after_results

theorem keep_2_v29 : StableHlo.after hostOps2 V (Proc.devRef .tc main_v29) = V (Proc.devRef .tc main_v29) := by
  dsimp only [hostOps0, hostOps0_1, hostOps0_2, hostOps1, hostOps2, hostOps3, hostOps4]
  after_results

theorem keep_2_arg6 : StableHlo.after hostOps2 V (Proc.devRef .tc main_arg6) = V (Proc.devRef .tc main_arg6) := by
  dsimp only [hostOps0, hostOps0_1, hostOps0_2, hostOps1, hostOps2, hostOps3, hostOps4]
  after_results

theorem keep_2_arg7 : StableHlo.after hostOps2 V (Proc.devRef .tc main_arg7) = V (Proc.devRef .tc main_arg7) := by
  dsimp only [hostOps0, hostOps0_1, hostOps0_2, hostOps1, hostOps2, hostOps3, hostOps4]
  after_results

theorem keep_2_arg8 : StableHlo.after hostOps2 V (Proc.devRef .tc main_arg8) = V (Proc.devRef .tc main_arg8) := by
  dsimp only [hostOps0, hostOps0_1, hostOps0_2, hostOps1, hostOps2, hostOps3, hostOps4]
  after_results

theorem keep_2_arg9 : StableHlo.after hostOps2 V (Proc.devRef .tc main_arg9) = V (Proc.devRef .tc main_arg9) := by
  dsimp only [hostOps0, hostOps0_1, hostOps0_2, hostOps1, hostOps2, hostOps3, hostOps4]
  after_results

/-! ## The stretch before region 3: aggregate width 8, and the bias row -/

theorem agg_3 : StableHlo.after hostOps3 V (Proc.devRef .tc main_v73) = aggregate8 (V (Proc.devRef .tc main_v60)) (V (Proc.devRef .tc main_v3)) (V (Proc.devRef .tc main_v6)) (V (Proc.devRef .tc main_v29)) := by
  dsimp only [hostOps0, hostOps0_1, hostOps0_2, hostOps1, hostOps2, hostOps3, hostOps4]
  after_results
  rfl

theorem row_3 : StableHlo.after hostOps3 V (Proc.devRef .tc main_v74) = shapeCast S1x8 (V (Proc.devRef .tc main_arg7)) shapeCasts_S8_S1x8 := by
  dsimp only [hostOps0, hostOps0_1, hostOps0_2, hostOps1, hostOps2, hostOps3, hostOps4]
  after_results
  rfl

theorem keep_3_v3 : StableHlo.after hostOps3 V (Proc.devRef .tc main_v3) = V (Proc.devRef .tc main_v3) := by
  dsimp only [hostOps0, hostOps0_1, hostOps0_2, hostOps1, hostOps2, hostOps3, hostOps4]
  after_results

theorem keep_3_v6 : StableHlo.after hostOps3 V (Proc.devRef .tc main_v6) = V (Proc.devRef .tc main_v6) := by
  dsimp only [hostOps0, hostOps0_1, hostOps0_2, hostOps1, hostOps2, hostOps3, hostOps4]
  after_results

theorem keep_3_v29 : StableHlo.after hostOps3 V (Proc.devRef .tc main_v29) = V (Proc.devRef .tc main_v29) := by
  dsimp only [hostOps0, hostOps0_1, hostOps0_2, hostOps1, hostOps2, hostOps3, hostOps4]
  after_results

theorem keep_3_arg8 : StableHlo.after hostOps3 V (Proc.devRef .tc main_arg8) = V (Proc.devRef .tc main_arg8) := by
  dsimp only [hostOps0, hostOps0_1, hostOps0_2, hostOps1, hostOps2, hostOps3, hostOps4]
  after_results

theorem keep_3_arg9 : StableHlo.after hostOps3 V (Proc.devRef .tc main_arg9) = V (Proc.devRef .tc main_arg9) := by
  dsimp only [hostOps0, hostOps0_1, hostOps0_2, hostOps1, hostOps2, hostOps3, hostOps4]
  after_results

/-! ## The stretch before region 4: aggregate width 64, and the bias row -/

theorem agg_4 : StableHlo.after hostOps4 V (Proc.devRef .tc main_v88) = aggregate64 (V (Proc.devRef .tc main_v75)) (V (Proc.devRef .tc main_v3)) (V (Proc.devRef .tc main_v6)) (V (Proc.devRef .tc main_v29)) := by
  dsimp only [hostOps0, hostOps0_1, hostOps0_2, hostOps1, hostOps2, hostOps3, hostOps4]
  after_results
  rfl

theorem row_4 : StableHlo.after hostOps4 V (Proc.devRef .tc main_v89) = shapeCast S1x64 (V (Proc.devRef .tc main_arg9)) shapeCasts_S64_S1x64 := by
  dsimp only [hostOps0, hostOps0_1, hostOps0_2, hostOps1, hostOps2, hostOps3, hostOps4]
  after_results
  rfl

end Cert.KernelIdeal.Stretches

end
-- ==== Proof.Network.lean ====
/-
  The whole computation as one expression, and the reference's result as that expression.

  `network`: four graph-convolution layers on node features `x0` — multiply by the first weights; aggregate over the
  edges; then three times (add the bias row, clamp at zero, multiply by the next weights, aggregate); finally add the last
  bias row. The bias rows are parameters, so that the two ways a bias vector is laid out as one row (a reshape in the
  kernel's host code, a broadcast along a new leading axis in the reference) are compared at the very end.
  The reference spells each dense step with the host's operations on whole arrays; those are the dense functions of
  the `GcnDense` namespace index by index, so its result is `network` with each bias row the broadcast of its vector.
-/
import proofs.«138533_j47699906790066_1_alg».proof.Proof.Glue
import proofs.«138533_j47699906790066_1_alg».proof.Proof.LibDense

set_option maxRecDepth 8192

noncomputable section

namespace Cert.ReferenceIdeal.Glue

open Idealize.ShloMosaic Cert.ReferenceIdeal GcnDense
open Cert.ReferenceIdeal.Facts₀ Cert.ReferenceIdeal.Facts

/-- The clamp's threshold: the zero word. -/
abbrev zero : EReal := Ideal.ofBits .f32 0x00000000#32

/-- Four layers over features `x0`, edge lists `s`, `d` with per-edge scale `n`, weights `x2 x4 x6 x8` and bias rows
    `r3 r5 r7 r9`. -/
def network (x0 : FVec Ideal S100000x64 .f32) (s d : IdxList) (n : EdgeScale)
    (x2 : FVec Ideal S64x32 .f32) (r3 : FVec Ideal S1x32 .f32) (x4 : FVec Ideal S32x16 .f32) (r5 : FVec Ideal S1x16 .f32)
    (x6 : FVec Ideal S16x8 .f32) (r7 : FVec Ideal S1x8 .f32) (x8 : FVec Ideal S8x64 .f32) (r9 : FVec Ideal S1x64 .f32) :
    FVec Ideal S100000x64 .f32 :=
  addRow (aggregate64 (layer (aggregate8 (layer (aggregate16 (layer (aggregate32 (prod x0 x2) s d n) r3 zero x4) s d n)
    r5 zero x6) s d n) r7 zero x8) s d n) r9

/-- The printed contraction records are the plain `[M, K] × [K, N]` contraction. -/
theorem dot1_eq : dot_S100000x64_S64x32_S100000x32_1_0_0_1_n_n = DotDims.plain 100000 64 32 := rfl
theorem dot2_eq : dot_S100000x32_S32x16_S100000x16_1_0_0_1_n_n = DotDims.plain 100000 32 16 := rfl
theorem dot3_eq : dot_S100000x16_S16x8_S100000x8_1_0_0_1_n_n = DotDims.plain 100000 16 8 := rfl
theorem dot4_eq : dot_S100000x8_S8x64_S100000x64_1_0_0_1_n_n = DotDims.plain 100000 8 64 := rfl

/-- The reference's result is the network with each bias vector broadcast to a row. -/
theorem reference_eq (x0 : FVec Ideal S100000x64 .f32) (e : Edges) (x2 : FVec Ideal S64x32 .f32) (x3 : FVec Ideal S32 .f32)
    (x4 : FVec Ideal S32x16 .f32) (x5 : FVec Ideal S16 .f32) (x6 : FVec Ideal S16x8 .f32) (x7 : FVec Ideal S8 .f32)
    (x8 : FVec Ideal S8x64 .f32) (x9 : FVec Ideal S64 .f32) :
    reference x0 e x2 x3 x4 x5 x6 x7 x8 x9
      = network x0 (srcOf e) (dstOf e) (normOf e) x2 (broadcastInDim S1x32 ![1] bcast_S32_S1x32_1 x3) x4
          (broadcastInDim S1x16 ![1] bcast_S16_S1x16_1 x5) x6 (broadcastInDim S1x8 ![1] bcast_S8_S1x8_1 x7) x8
          (broadcastInDim S1x64 ![1] bcast_S64_S1x64_1 x9) := by
  unfold reference network
  rw [dot1_eq, dot2_eq, dot3_eq, dot4_eq]
  rw [host_addRow, host_layer, host_layer, host_layer, host_prod]

end Cert.ReferenceIdeal.Glue

end
-- ==== Proof.Chain.lean ====
/-
  The idealized kernel's buffers at each boundary between its segments, read forward from the launch memory `m`.

  With `e` the launched edge array: the edge lists `srcOf e`, `dstOf e` and the norm `normOf e` are in place when the
  first region is entered and no later segment writes them; each region leaves its output array at the dense function
  of the arrays it found (the region modules), each stretch between regions leaves one aggregate of that output and the
  next bias vector as one row (the stretch module); an argument keeps its launch contents until it is read. Chaining
  these, the result buffer after the last region holds `network` of the launched arrays, the bias rows by reshape.
-/
import proofs.«138533_j47699906790066_1_alg».proof.Proof.Gen.KernelIdeal.Frame
import proofs.«138533_j47699906790066_1_alg».proof.Proof.Region0
import proofs.«138533_j47699906790066_1_alg».proof.Proof.Region1
import proofs.«138533_j47699906790066_1_alg».proof.Proof.Region2
import proofs.«138533_j47699906790066_1_alg».proof.Proof.Region3
import proofs.«138533_j47699906790066_1_alg».proof.Proof.Region4
import proofs.«138533_j47699906790066_1_alg».proof.Proof.Stretches
import proofs.«138533_j47699906790066_1_alg».proof.Proof.Network

set_option maxRecDepth 16384
set_option maxHeartbeats 1000000

noncomputable section

namespace Cert.KernelIdeal.Chain

open Idealize.ShloMosaic Idealize.ShloMosaic.TcCoe Idealize.ShloMosaic.StableHlo Idealize.SL.Sem
open Cert.KernelIdeal Cert.KernelIdeal.Gen GcnDense
open Cert.ReferenceIdeal.Glue (srcOf dstOf wrap degOf dinvOf scaleOf normOf aggregate32 aggregate16 aggregate8 aggregate64 network)

variable (m : (ℓ : Loc nD τ sig) → Buf (Elt Ideal) ℓ) (ρ : Dev nD → PrngReg) (c : Dev nD)

/-- The clamp's threshold: the zero word. -/
abbrev zero : EReal := Ideal.ofBits .f32 0x00000000#32

/-! ## The values -/

abbrev srcs := srcOf (m ((c : Thread nD τ).loc main_arg1))
abbrev dsts := dstOf (m ((c : Thread nD τ).loc main_arg1))
abbrev norm := normOf (m ((c : Thread nD τ).loc main_arg1))
abbrev feat1 := prod (m ((c : Thread nD τ).loc main_arg0)) (m ((c : Thread nD τ).loc main_arg2))
abbrev agg1 := aggregate32 (feat1 m c) (srcs m c) (dsts m c) (norm m c)
abbrev row1 := shapeCast S1x32 (m ((c : Thread nD τ).loc main_arg3)) shapeCasts_S32_S1x32
abbrev feat2 := layer (agg1 m c) (row1 m c) zero (m ((c : Thread nD τ).loc main_arg4))
abbrev agg2 := aggregate16 (feat2 m c) (srcs m c) (dsts m c) (norm m c)
abbrev row2 := shapeCast S1x16 (m ((c : Thread nD τ).loc main_arg5)) shapeCasts_S16_S1x16
abbrev feat3 := layer (agg2 m c) (row2 m c) zero (m ((c : Thread nD τ).loc main_arg6))
abbrev agg3 := aggregate8 (feat3 m c) (srcs m c) (dsts m c) (norm m c)
abbrev row3 := shapeCast S1x8 (m ((c : Thread nD τ).loc main_arg7)) shapeCasts_S8_S1x8
abbrev feat4 := layer (agg3 m c) (row3 m c) zero (m ((c : Thread nD τ).loc main_arg8))
abbrev agg4 := aggregate64 (feat4 m c) (srcs m c) (dsts m c) (norm m c)
abbrev row4 := shapeCast S1x64 (m ((c : Thread nD τ).loc main_arg9)) shapeCasts_S64_S1x64

/-! ## After the first two stretches -/

theorem at_v3_2 : W2 m ρ c (Proc.devRef .tc main_v3) = srcs m c :=
  Stretches.src_01 (W0 m ρ c)

theorem at_v6_2 : W2 m ρ c (Proc.devRef .tc main_v6) = dsts m c :=
  Stretches.dst_01 (W0 m ρ c)

theorem at_v12_1 : W1 m ρ c (Proc.devRef .tc main_v12)
    = cmpf (F := Ideal) .ogt (degOf (dsts m c)) (broadcastInDim S100000 ![] bcast_S_S100000 (constant (F := Ideal) S_ .f32 0x00000000#32)) :=
  Stretches.pos_0 (W0 m ρ c)

theorem at_v13_1 : W1 m ρ c (Proc.devRef .tc main_v13) = Host.rsqrt (F := Ideal) (degOf (dsts m c)) :=
  Stretches.rsq_0 (W0 m ρ c)

theorem at_cst_2_1 : W1 m ρ c (Proc.devRef .tc main_cst_2) = constant (F := Ideal) S_ .f32 0x00000000#32 :=
  Stretches.cst_0 (W0 m ρ c)

theorem at_v14_2 : W2 m ρ c (Proc.devRef .tc main_v14) = dinvOf (degOf (dsts m c)) :=
  (Stretches.sel_1 (W1 m ρ c)).trans (by rw [at_v12_1, at_v13_1, at_cst_2_1]; rfl)

theorem at_arg0_2 : W2 m ρ c (Proc.devRef .tc main_arg0) = m ((c : Thread nD τ).loc main_arg0) :=
  Stretches.keep_01_arg0 (W0 m ρ c)

theorem at_arg2_2 : W2 m ρ c (Proc.devRef .tc main_arg2) = m ((c : Thread nD τ).loc main_arg2) :=
  Stretches.keep_01_arg2 (W0 m ρ c)

theorem at_arg3_2 : W2 m ρ c (Proc.devRef .tc main_arg3) = m ((c : Thread nD τ).loc main_arg3) :=
  Stretches.keep_01_arg3 (W0 m ρ c)

theorem at_arg4_2 : W2 m ρ c (Proc.devRef .tc main_arg4) = m ((c : Thread nD τ).loc main_arg4) :=
  Stretches.keep_01_arg4 (W0 m ρ c)

theorem at_arg5_2 : W2 m ρ c (Proc.devRef .tc main_arg5) = m ((c : Thread nD τ).loc main_arg5) :=
  Stretches.keep_01_arg5 (W0 m ρ c)

theorem at_arg6_2 : W2 m ρ c (Proc.devRef .tc main_arg6) = m ((c : Thread nD τ).loc main_arg6) :=
  Stretches.keep_01_arg6 (W0 m ρ c)

theorem at_arg7_2 : W2 m ρ c (Proc.devRef .tc main_arg7) = m ((c : Thread nD τ).loc main_arg7) :=
  Stretches.keep_01_arg7 (W0 m ρ c)

theorem at_arg8_2 : W2 m ρ c (Proc.devRef .tc main_arg8) = m ((c : Thread nD τ).loc main_arg8) :=
  Stretches.keep_01_arg8 (W0 m ρ c)

theorem at_arg9_2 : W2 m ρ c (Proc.devRef .tc main_arg9) = m ((c : Thread nD τ).loc main_arg9) :=
  Stretches.keep_01_arg9 (W0 m ρ c)

/-! ## At the first region's entry -/

theorem at_v3_3 : W3 m ρ c (Proc.devRef .tc main_v3) = srcs m c :=
  (Stretches.keep_02_v3 (W2 m ρ c)).trans (at_v3_2 m ρ c)

theorem at_v6_3 : W3 m ρ c (Proc.devRef .tc main_v6) = dsts m c :=
  (Stretches.keep_02_v6 (W2 m ρ c)).trans (at_v6_2 m ρ c)

theorem at_arg0_3 : W3 m ρ c (Proc.devRef .tc main_arg0) = m ((c : Thread nD τ).loc main_arg0) :=
  (Stretches.keep_02_arg0 (W2 m ρ c)).trans (at_arg0_2 m ρ c)

theorem at_arg2_3 : W3 m ρ c (Proc.devRef .tc main_arg2) = m ((c : Thread nD τ).loc main_arg2) :=
  (Stretches.keep_02_arg2 (W2 m ρ c)).trans (at_arg2_2 m ρ c)

theorem at_arg3_3 : W3 m ρ c (Proc.devRef .tc main_arg3) = m ((c : Thread nD τ).loc main_arg3) :=
  (Stretches.keep_02_arg3 (W2 m ρ c)).trans (at_arg3_2 m ρ c)

theorem at_arg4_3 : W3 m ρ c (Proc.devRef .tc main_arg4) = m ((c : Thread nD τ).loc main_arg4) :=
  (Stretches.keep_02_arg4 (W2 m ρ c)).trans (at_arg4_2 m ρ c)

theorem at_arg5_3 : W3 m ρ c (Proc.devRef .tc main_arg5) = m ((c : Thread nD τ).loc main_arg5) :=
  (Stretches.keep_02_arg5 (W2 m ρ c)).trans (at_arg5_2 m ρ c)

theorem at_arg6_3 : W3 m ρ c (Proc.devRef .tc main_arg6) = m ((c : Thread nD τ).loc main_arg6) :=
  (Stretches.keep_02_arg6 (W2 m ρ c)).trans (at_arg6_2 m ρ c)

theorem at_arg7_3 : W3 m ρ c (Proc.devRef .tc main_arg7) = m ((c : Thread nD τ).loc main_arg7) :=
  (Stretches.keep_02_arg7 (W2 m ρ c)).trans (at_arg7_2 m ρ c)

theorem at_arg8_3 : W3 m ρ c (Proc.devRef .tc main_arg8) = m ((c : Thread nD τ).loc main_arg8) :=
  (Stretches.keep_02_arg8 (W2 m ρ c)).trans (at_arg8_2 m ρ c)

theorem at_arg9_3 : W3 m ρ c (Proc.devRef .tc main_arg9) = m ((c : Thread nD τ).loc main_arg9) :=
  (Stretches.keep_02_arg9 (W2 m ρ c)).trans (at_arg9_2 m ρ c)

theorem at_v29_3 : W3 m ρ c (Proc.devRef .tc main_v29) = norm m c :=
  (Stretches.scale_02 (W2 m ρ c)).trans (by rw [at_v14_2, at_v3_2, at_v6_2]; rfl)

/-! ## After region 0 -/

theorem at_v30_4 : W4 m ρ c (Proc.devRef .tc main_v30) = feat1 m c := by
  refine (W4_arr m ρ c 2).trans ((Region0.final (V3 m ρ) c).trans ?_)
  show prod (W3 m ρ c (Proc.devRef .tc main_arg0)) (W3 m ρ c (Proc.devRef .tc main_arg2)) = _
  rw [at_arg0_3, at_arg2_3]

theorem at_v3_4 : W4 m ρ c (Proc.devRef .tc main_v3) = srcs m c :=
  (W4_of_ne m ρ c main_v3 (by decide)).trans (at_v3_3 m ρ c)

theorem at_v6_4 : W4 m ρ c (Proc.devRef .tc main_v6) = dsts m c :=
  (W4_of_ne m ρ c main_v6 (by decide)).trans (at_v6_3 m ρ c)

theorem at_v29_4 : W4 m ρ c (Proc.devRef .tc main_v29) = norm m c :=
  (W4_of_ne m ρ c main_v29 (by decide)).trans (at_v29_3 m ρ c)

theorem at_arg3_4 : W4 m ρ c (Proc.devRef .tc main_arg3) = m ((c : Thread nD τ).loc main_arg3) :=
  (W4_of_ne m ρ c main_arg3 (by decide)).trans (at_arg3_3 m ρ c)

theorem at_arg4_4 : W4 m ρ c (Proc.devRef .tc main_arg4) = m ((c : Thread nD τ).loc main_arg4) :=
  (W4_of_ne m ρ c main_arg4 (by decide)).trans (at_arg4_3 m ρ c)

theorem at_arg5_4 : W4 m ρ c (Proc.devRef .tc main_arg5) = m ((c : Thread nD τ).loc main_arg5) :=
  (W4_of_ne m ρ c main_arg5 (by decide)).trans (at_arg5_3 m ρ c)

theorem at_arg6_4 : W4 m ρ c (Proc.devRef .tc main_arg6) = m ((c : Thread nD τ).loc main_arg6) :=
  (W4_of_ne m ρ c main_arg6 (by decide)).trans (at_arg6_3 m ρ c)

theorem at_arg7_4 : W4 m ρ c (Proc.devRef .tc main_arg7) = m ((c : Thread nD τ).loc main_arg7) :=
  (W4_of_ne m ρ c main_arg7 (by decide)).trans (at_arg7_3 m ρ c)

theorem at_arg8_4 : W4 m ρ c (Proc.devRef .tc main_arg8) = m ((c : Thread nD τ).loc main_arg8) :=
  (W4_of_ne m ρ c main_arg8 (by decide)).trans (at_arg8_3 m ρ c)

theorem at_arg9_4 : W4 m ρ c (Proc.devRef .tc main_arg9) = m ((c : Thread nD τ).loc main_arg9) :=
  (W4_of_ne m ρ c main_arg9 (by decide)).trans (at_arg9_3 m ρ c)

/-! ## At region 1's entry -/

theorem at_v43_5 : W5 m ρ c (Proc.devRef .tc main_v43) = agg1 m c :=
  (Stretches.agg_1 (W4 m ρ c)).trans (by rw [at_v30_4, at_v3_4, at_v6_4, at_v29_4])

theorem at_v44_5 : W5 m ρ c (Proc.devRef .tc main_v44) = row1 m c :=
  (Stretches.row_1 (W4 m ρ c)).trans (by rw [at_arg3_4])

theorem at_v3_5 : W5 m ρ c (Proc.devRef .tc main_v3) = srcs m c :=
  (Stretches.keep_1_v3 (W4 m ρ c)).trans (at_v3_4 m ρ c)

theorem at_v6_5 : W5 m ρ c (Proc.devRef .tc main_v6) = dsts m c :=
  (Stretches.keep_1_v6 (W4 m ρ c)).trans (at_v6_4 m ρ c)

theorem at_v29_5 : W5 m ρ c (Proc.devRef .tc main_v29) = norm m c :=
  (Stretches.keep_1_v29 (W4 m ρ c)).trans (at_v29_4 m ρ c)

theorem at_arg4_5 : W5 m ρ c (Proc.devRef .tc main_arg4) = m ((c : Thread nD τ).loc main_arg4) :=
  (Stretches.keep_1_arg4 (W4 m ρ c)).trans (at_arg4_4 m ρ c)

theorem at_arg5_5 : W5 m ρ c (Proc.devRef .tc main_arg5) = m ((c : Thread nD τ).loc main_arg5) :=
  (Stretches.keep_1_arg5 (W4 m ρ c)).trans (at_arg5_4 m ρ c)

theorem at_arg6_5 : W5 m ρ c (Proc.devRef .tc main_arg6) = m ((c : Thread nD τ).loc main_arg6) :=
  (Stretches.keep_1_arg6 (W4 m ρ c)).trans (at_arg6_4 m ρ c)

theorem at_arg7_5 : W5 m ρ c (Proc.devRef .tc main_arg7) = m ((c : Thread nD τ).loc main_arg7) :=
  (Stretches.keep_1_arg7 (W4 m ρ c)).trans (at_arg7_4 m ρ c)

theorem at_arg8_5 : W5 m ρ c (Proc.devRef .tc main_arg8) = m ((c : Thread nD τ).loc main_arg8) :=
  (Stretches.keep_1_arg8 (W4 m ρ c)).trans (at_arg8_4 m ρ c)

theorem at_arg9_5 : W5 m ρ c (Proc.devRef .tc main_arg9) = m ((c : Thread nD τ).loc main_arg9) :=
  (Stretches.keep_1_arg9 (W4 m ρ c)).trans (at_arg9_4 m ρ c)

/-! ## After region 1 -/

theorem at_v45_6 : W6 m ρ c (Proc.devRef .tc main_v45) = feat2 m c := by
  refine (W6_arr m ρ c 3).trans ((Region1.final (V5 m ρ) c).trans ?_)
  show layer (W5 m ρ c (Proc.devRef .tc main_v43)) (W5 m ρ c (Proc.devRef .tc main_v44)) zero (W5 m ρ c (Proc.devRef .tc main_arg4)) = _
  rw [at_v43_5, at_v44_5, at_arg4_5]

theorem at_v3_6 : W6 m ρ c (Proc.devRef .tc main_v3) = srcs m c :=
  (W6_of_ne m ρ c main_v3 (by decide)).trans (at_v3_5 m ρ c)

theorem at_v6_6 : W6 m ρ c (Proc.devRef .tc main_v6) = dsts m c :=
  (W6_of_ne m ρ c main_v6 (by decide)).trans (at_v6_5 m ρ c)

theorem at_v29_6 : W6 m ρ c (Proc.devRef .tc main_v29) = norm m c :=
  (W6_of_ne m ρ c main_v29 (by decide)).trans (at_v29_5 m ρ c)

theorem at_arg5_6 : W6 m ρ c (Proc.devRef .tc main_arg5) = m ((c : Thread nD τ).loc main_arg5) :=
  (W6_of_ne m ρ c main_arg5 (by decide)).trans (at_arg5_5 m ρ c)

theorem at_arg6_6 : W6 m ρ c (Proc.devRef .tc main_arg6) = m ((c : Thread nD τ).loc main_arg6) :=
  (W6_of_ne m ρ c main_arg6 (by decide)).trans (at_arg6_5 m ρ c)

theorem at_arg7_6 : W6 m ρ c (Proc.devRef .tc main_arg7) = m ((c : Thread nD τ).loc main_arg7) :=
  (W6_of_ne m ρ c main_arg7 (by decide)).trans (at_arg7_5 m ρ c)

theorem at_arg8_6 : W6 m ρ c (Proc.devRef .tc main_arg8) = m ((c : Thread nD τ).loc main_arg8) :=
  (W6_of_ne m ρ c main_arg8 (by decide)).trans (at_arg8_5 m ρ c)

theorem at_arg9_6 : W6 m ρ c (Proc.devRef .tc main_arg9) = m ((c : Thread nD τ).loc main_arg9) :=
  (W6_of_ne m ρ c main_arg9 (by decide)).trans (at_arg9_5 m ρ c)

/-! ## At region 2's entry -/

theorem at_v58_7 : W7 m ρ c (Proc.devRef .tc main_v58) = agg2 m c :=
  (Stretches.agg_2 (W6 m ρ c)).trans (by rw [at_v45_6, at_v3_6, at_v6_6, at_v29_6])

theorem at_v59_7 : W7 m ρ c (Proc.devRef .tc main_v59) = row2 m c :=
  (Stretches.row_2 (W6 m ρ c)).trans (by rw [at_arg5_6])

theorem at_v3_7 : W7 m ρ c (Proc.devRef .tc main_v3) = srcs m c :=
  (Stretches.keep_2_v3 (W6 m ρ c)).trans (at_v3_6 m ρ c)

theorem at_v6_7 : W7 m ρ c (Proc.devRef .tc main_v6) = dsts m c :=
  (Stretches.keep_2_v6 (W6 m ρ c)).trans (at_v6_6 m ρ c)

theorem at_v29_7 : W7 m ρ c (Proc.devRef .tc main_v29) = norm m c :=
  (Stretches.keep_2_v29 (W6 m ρ c)).trans (at_v29_6 m ρ c)

theorem at_arg6_7 : W7 m ρ c (Proc.devRef .tc main_arg6) = m ((c : Thread nD τ).loc main_arg6) :=
  (Stretches.keep_2_arg6 (W6 m ρ c)).trans (at_arg6_6 m ρ c)

theorem at_arg7_7 : W7 m ρ c (Proc.devRef .tc main_arg7) = m ((c : Thread nD τ).loc main_arg7) :=
  (Stretches.keep_2_arg7 (W6 m ρ c)).trans (at_arg7_6 m ρ c)

theorem at_arg8_7 : W7 m ρ c (Proc.devRef .tc main_arg8) = m ((c : Thread nD τ).loc main_arg8) :=
  (Stretches.keep_2_arg8 (W6 m ρ c)).trans (at_arg8_6 m ρ c)

theorem at_arg9_7 : W7 m ρ c (Proc.devRef .tc main_arg9) = m ((c : Thread nD τ).loc main_arg9) :=
  (Stretches.keep_2_arg9 (W6 m ρ c)).trans (at_arg9_6 m ρ c)

/-! ## After region 2 -/

theorem at_v60_8 : W8 m ρ c (Proc.devRef .tc main_v60) = feat3 m c := by
  refine (W8_arr m ρ c 3).trans ((Region2.final (V7 m ρ) c).trans ?_)
  show layer (W7 m ρ c (Proc.devRef .tc main_v58)) (W7 m ρ c (Proc.devRef .tc main_v59)) zero (W7 m ρ c (Proc.devRef .tc main_arg6)) = _
  rw [at_v58_7, at_v59_7, at_arg6_7]

theorem at_v3_8 : W8 m ρ c (Proc.devRef .tc main_v3) = srcs m c :=
  (W8_of_ne m ρ c main_v3 (by decide)).trans (at_v3_7 m ρ c)

theorem at_v6_8 : W8 m ρ c (Proc.devRef .tc main_v6) = dsts m c :=
  (W8_of_ne m ρ c main_v6 (by decide)).trans (at_v6_7 m ρ c)

theorem at_v29_8 : W8 m ρ c (Proc.devRef .tc main_v29) = norm m c :=
  (W8_of_ne m ρ c main_v29 (by decide)).trans (at_v29_7 m ρ c)

theorem at_arg7_8 : W8 m ρ c (Proc.devRef .tc main_arg7) = m ((c : Thread nD τ).loc main_arg7) :=
  (W8_of_ne m ρ c main_arg7 (by decide)).trans (at_arg7_7 m ρ c)

theorem at_arg8_8 : W8 m ρ c (Proc.devRef .tc main_arg8) = m ((c : Thread nD τ).loc main_arg8) :=
  (W8_of_ne m ρ c main_arg8 (by decide)).trans (at_arg8_7 m ρ c)

theorem at_arg9_8 : W8 m ρ c (Proc.devRef .tc main_arg9) = m ((c : Thread nD τ).loc main_arg9) :=
  (W8_of_ne m ρ c main_arg9 (by decide)).trans (at_arg9_7 m ρ c)

/-! ## At region 3's entry -/

theorem at_v73_9 : W9 m ρ c (Proc.devRef .tc main_v73) = agg3 m c :=
  (Stretches.agg_3 (W8 m ρ c)).trans (by rw [at_v60_8, at_v3_8, at_v6_8, at_v29_8])

theorem at_v74_9 : W9 m ρ c (Proc.devRef .tc main_v74) = row3 m c :=
  (Stretches.row_3 (W8 m ρ c)).trans (by rw [at_arg7_8])

theorem at_v3_9 : W9 m ρ c (Proc.devRef .tc main_v3) = srcs m c :=
  (Stretches.keep_3_v3 (W8 m ρ c)).trans (at_v3_8 m ρ c)

theorem at_v6_9 : W9 m ρ c (Proc.devRef .tc main_v6) = dsts m c :=
  (Stretches.keep_3_v6 (W8 m ρ c)).trans (at_v6_8 m ρ c)

theorem at_v29_9 : W9 m ρ c (Proc.devRef .tc main_v29) = norm m c :=
  (Stretches.keep_3_v29 (W8 m ρ c)).trans (at_v29_8 m ρ c)

theorem at_arg8_9 : W9 m ρ c (Proc.devRef .tc main_arg8) = m ((c : Thread nD τ).loc main_arg8) :=
  (Stretches.keep_3_arg8 (W8 m ρ c)).trans (at_arg8_8 m ρ c)

theorem at_arg9_9 : W9 m ρ c (Proc.devRef .tc main_arg9) = m ((c : Thread nD τ).loc main_arg9) :=
  (Stretches.keep_3_arg9 (W8 m ρ c)).trans (at_arg9_8 m ρ c)

/-! ## After region 3 -/

theorem at_v75_10 : W10 m ρ c (Proc.devRef .tc main_v75) = feat4 m c := by
  refine (W10_arr m ρ c 3).trans ((Region3.final (V9 m ρ) c).trans ?_)
  show layer (W9 m ρ c (Proc.devRef .tc main_v73)) (W9 m ρ c (Proc.devRef .tc main_v74)) zero (W9 m ρ c (Proc.devRef .tc main_arg8)) = _
  rw [at_v73_9, at_v74_9, at_arg8_9]

theorem at_v3_10 : W10 m ρ c (Proc.devRef .tc main_v3) = srcs m c :=
  (W10_of_ne m ρ c main_v3 (by decide)).trans (at_v3_9 m ρ c)

theorem at_v6_10 : W10 m ρ c (Proc.devRef .tc main_v6) = dsts m c :=
  (W10_of_ne m ρ c main_v6 (by decide)).trans (at_v6_9 m ρ c)

theorem at_v29_10 : W10 m ρ c (Proc.devRef .tc main_v29) = norm m c :=
  (W10_of_ne m ρ c main_v29 (by decide)).trans (at_v29_9 m ρ c)

theorem at_arg9_10 : W10 m ρ c (Proc.devRef .tc main_arg9) = m ((c : Thread nD τ).loc main_arg9) :=
  (W10_of_ne m ρ c main_arg9 (by decide)).trans (at_arg9_9 m ρ c)

/-! ## At region 4's entry -/

theorem at_v88_11 : W11 m ρ c (Proc.devRef .tc main_v88) = agg4 m c :=
  (Stretches.agg_4 (W10 m ρ c)).trans (by rw [at_v75_10, at_v3_10, at_v6_10, at_v29_10])

theorem at_v89_11 : W11 m ρ c (Proc.devRef .tc main_v89) = row4 m c :=
  (Stretches.row_4 (W10 m ρ c)).trans (by rw [at_arg9_10])

/-! ## After region 4 -/

theorem at_v90_12 : W12 m ρ c (Proc.devRef .tc main_v90) = addRow (agg4 m c) (row4 m c) := by
  refine (W12_arr m ρ c 2).trans ((Region4.final (V11 m ρ) c).trans ?_)
  show addRow (W11 m ρ c (Proc.devRef .tc main_v88)) (W11 m ρ c (Proc.devRef .tc main_v89)) = _
  rw [at_v88_11, at_v89_11]

/-! ## The result -/

/-- The result buffer after the last region holds the network of the launched arrays. -/
theorem result : W12 m ρ c (Proc.devRef .tc main_v90)
    = network (m ((c : Thread nD τ).loc main_arg0)) (srcs m c) (dsts m c) (norm m c) (m ((c : Thread nD τ).loc main_arg2)) (row1 m c) (m ((c : Thread nD τ).loc main_arg4)) (row2 m c) (m ((c : Thread nD τ).loc main_arg6)) (row3 m c) (m ((c : Thread nD τ).loc main_arg8)) (row4 m c) :=
  at_v90_12 m ρ c

end Cert.KernelIdeal.Chain

end
-- ==== Proof.RefValue.lean ====
/- The reference's returned array, as the run reads it back, is the structured expression of the graph computation.

   The run states the returned array as one composed term of the argument arrays' initial contents: every operation
   applied to the terms of the arrays it reads. The structured expression names the parts of the same computation —
   the source and destination lists with the loops appended, the index wrap, the degrees, their inverse square roots,
   the per-edge weight, one aggregation per feature width, the four layers — and is that composed term once its
   names are unfolded: the two sides are equal by computation. -/
import proofs.«138533_j47699906790066_1_alg».proof.Proof.RefRun
import proofs.«138533_j47699906790066_1_alg».proof.Proof.Glue

noncomputable section

namespace Cert.ReferenceIdeal.RefValue

open Cert.ReferenceIdeal Idealize.ShloMosaic Idealize.ShloMosaic.TcCoe Idealize.SL.Sem

set_option maxRecDepth 8192 in
/-- Over the extended reals, on the device: the composed term the run states for the returned array is the structured
    expression at the ten argument arrays' initial contents. Unfolding the names on the right (the four
    aggregations, the per-edge weight, the inverse square roots of the degrees, the degrees, the wrapped source and
    destination lists) gives the left side symbol for symbol. -/
theorem res_eq (m : (ℓ : Loc nD τ sig) → Buf (Elt Ideal) ℓ) (c : Dev nD) :
    Cert.ReferenceIdeal.RefRun.res m c
      = Cert.ReferenceIdeal.Glue.reference (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) :=
  rfl

end Cert.ReferenceIdeal.RefValue

end
-- ==== Proof.Bridge.lean ====
/-
  The two results are one array.

  From memories that agree on the ten arguments, the reference's result term and the contents of the kernel's result
  buffer after its run are both the network of the launched arrays: the reference's by its expression read through the
  dense functions, the kernel's by the chain through its segments. They differ only in how each bias vector is laid out
  as one row (a broadcast along a new leading axis against a reshape), and those are the same row.
-/
import proofs.«138533_j47699906790066_1_alg».proof.Proof.Chain
import proofs.«138533_j47699906790066_1_alg».proof.Proof.Network
import proofs.«138533_j47699906790066_1_alg».proof.Proof.RefRun
import proofs.«138533_j47699906790066_1_alg».proof.Proof.RefValue

set_option maxRecDepth 16384
set_option maxHeartbeats 1000000

noncomputable section

namespace Cert.Bridge

open Idealize.ShloMosaic Idealize.ShloMosaic.TcCoe Idealize.SL.Sem
open Cert.ReferenceIdeal.Glue (srcOf dstOf normOf network reference reference_eq)

/-- A bias vector laid out as one row by a reshape (the kernel's host code) is the row the reference makes by a
    broadcast along a new leading axis. -/
theorem row1_eq (b : FVec Ideal Cert.KernelIdeal.S32 .f32) :
    shapeCast Cert.KernelIdeal.S1x32 b Cert.KernelIdeal.Facts₀.shapeCasts_S32_S1x32 = broadcastInDim Cert.ReferenceIdeal.S1x32 ![1] Cert.ReferenceIdeal.Facts₀.bcast_S32_S1x32_1 b :=
  PlainDot.shapeCast_eq_broadcastInDim_row b _ _
theorem row2_eq (b : FVec Ideal Cert.KernelIdeal.S16 .f32) :
    shapeCast Cert.KernelIdeal.S1x16 b Cert.KernelIdeal.Facts₀.shapeCasts_S16_S1x16 = broadcastInDim Cert.ReferenceIdeal.S1x16 ![1] Cert.ReferenceIdeal.Facts₀.bcast_S16_S1x16_1 b :=
  PlainDot.shapeCast_eq_broadcastInDim_row b _ _
theorem row3_eq (b : FVec Ideal Cert.KernelIdeal.S8 .f32) :
    shapeCast Cert.KernelIdeal.S1x8 b Cert.KernelIdeal.Facts₀.shapeCasts_S8_S1x8 = broadcastInDim Cert.ReferenceIdeal.S1x8 ![1] Cert.ReferenceIdeal.Facts₀.bcast_S8_S1x8_1 b :=
  PlainDot.shapeCast_eq_broadcastInDim_row b _ _
theorem row4_eq (b : FVec Ideal Cert.KernelIdeal.S64 .f32) :
    shapeCast Cert.KernelIdeal.S1x64 b Cert.KernelIdeal.Facts₀.shapeCasts_S64_S1x64 = broadcastInDim Cert.ReferenceIdeal.S1x64 ![1] Cert.ReferenceIdeal.Facts₀.bcast_S64_S1x64_1 b :=
  PlainDot.shapeCast_eq_broadcastInDim_row b _ _

/-- The reference's result term, from a memory agreeing with the kernel's on the arguments, is what the kernel's
    result buffer holds after its run. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RefRun.res m' c = Cert.KernelIdeal.Gen.W12 m ρ c (Proc.devRef .tc Cert.KernelIdeal.main_v90) := by
  obtain ⟨h0, h1, h2, h3, h4, h5, h6, h7, h8, h9⟩ := hagree
  rw [Cert.ReferenceIdeal.RefValue.res_eq, reference_eq, Cert.KernelIdeal.Chain.result, h0, h1, h2, h3, h4, h5, h6, h7, h8, h9]
  dsimp only [Cert.KernelIdeal.Chain.srcs, Cert.KernelIdeal.Chain.dsts, Cert.KernelIdeal.Chain.norm, Cert.KernelIdeal.Chain.row1, Cert.KernelIdeal.Chain.row2, Cert.KernelIdeal.Chain.row3, Cert.KernelIdeal.Chain.row4]
  rw [row1_eq, row2_eq, row3_eq, row4_eq]

end Cert.Bridge

end
-- ==== Proof.lean ====
/-
  A four-layer graph convolution network on 100,000 nodes and 3,200,000 directed edges (plus one self-loop per node):
  the kernel against its jnp reference, as extended reals.

  Both programs compute, per layer, `aggregate (h · W) + b`, the first three layers followed by a clamp at zero, where
  `aggregate` gathers the rows of its argument at the edges' sources, scales each by the symmetric degree normalisation
  of its edge, and adds them up at the edges' destinations. The reference does each dense step on the host. The kernel
  does the dense steps in five TensorCore regions over blocks of 10,000 rows — the first product alone, then three
  times (add the previous layer's bias, clamp, multiply by the next weights) fused in one region, and the last bias
  alone — and leaves the gathers and scatter-additions to the same host operations as the reference, between regions.

  At the ideal instance rounding to bf16 is the identity, the matrix unit's product into a zero accumulator and the
  host's `dot_general` are the same sum over the contracted axis, and a block of rows of a product depends on the same
  rows of its left operand only, so each region's output array is the dense function of the arrays it found; the host
  operations between regions are word for word the reference's. Both results are therefore one expression of the
  arguments (`Cert.ReferenceIdeal.Glue.network`); no law that needs finite inputs is used, so the precondition is not
  opened. The idealization rewrote nothing, so `preserves` is trivial.

  The three frames: the kernel's two are the generated frame certificates; the reference has no kernel, and its frame
  is its run with the result dropped.
-/
import proofs.«138533_j47699906790066_1_alg».proof.Defs
import proofs.«138533_j47699906790066_1_alg».proof.Proof.Gen.Kernel
import proofs.«138533_j47699906790066_1_alg».proof.Proof.Gen.Kernel.Skeleton
import proofs.«138533_j47699906790066_1_alg».proof.Proof.Gen.Kernel.Launch
import proofs.«138533_j47699906790066_1_alg».proof.Proof.Gen.Kernel.Points
import proofs.«138533_j47699906790066_1_alg».proof.Proof.Gen.Kernel.Frame
import proofs.«138533_j47699906790066_1_alg».proof.Proof.Gen.KernelIdeal
import proofs.«138533_j47699906790066_1_alg».proof.Proof.Gen.KernelIdeal.Skeleton
import proofs.«138533_j47699906790066_1_alg».proof.Proof.Gen.KernelIdeal.Launch
import proofs.«138533_j47699906790066_1_alg».proof.Proof.Gen.KernelIdeal.Points
import proofs.«138533_j47699906790066_1_alg».proof.Proof.Gen.KernelIdeal.Frame
import proofs.«138533_j47699906790066_1_alg».proof.Proof.Gen.ReferenceIdeal
import proofs.«138533_j47699906790066_1_alg».proof.Proof.Gen.Pre_finite_inputs
import proofs.«138533_j47699906790066_1_alg».proof.Proof.ValueRun
import proofs.«138533_j47699906790066_1_alg».proof.Proof.RefRun
import proofs.«138533_j47699906790066_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs run, and the reference's result is what the kernel's result
    buffer ends holding: both are the network of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v90),
    Cert.KernelIdeal.ValueRun.run m ρ, ?_⟩
  exact (θ_run Cert.ReferenceIdeal.defs _ _).mono
    (fun _ h c => ⟨(h c).1.trans (Cert.Bridge.result_eq m ρ m' c (hagree c)), (h c).2⟩)
    (Cert.ReferenceIdeal.RefRun.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
